-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v22)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v22) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v47) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192 : Shape := ⟨1, ![8192]⟩
abbrev S8192x1 : Shape := ⟨2, ![8192, 1]⟩
abbrev S_ : Shape := ⟨0, ![]⟩

class Facts : Prop where
  bcast_S_S8192x1 : S_.BroadcastsInDim S8192x1 (![] : Fin 0 → Fin S8192x1.rank)
  reducesTo_S8192x1_S_d0_1 : S8192x1.ReducesTo [0, 1] S_
  h_S_ : 0 < S_.numel

variable [Facts]

def fn {F : FTy → Type} [FloatOps F] (main_arg0 : IVec S8192 1) (main_arg1 : FVec F S8192x1 .f32) (main_arg2 : FVec F S8192x1 .f32) : IVec S_ 1 :=
  let main_v0 : FVec F S8192x1 .f32 := Host.absf main_arg1
  let main_cst : FVec F S_ .f32 := constant S_ .f32 0x7F800000#32
  let main_v1 : FVec F S8192x1 .f32 := broadcastInDim S8192x1 ![] bcast_S_S8192x1 main_cst
  let main_v2 : IVec S8192x1 1 := cmpf .olt main_v0 main_v1
  let main_c : IVec S_ 1 := constantI S_ 1 1#1
  let main_v3 : IVec S_ 1 := (fun x v => Host.reduce IntOp.andi x v reducesTo_S8192x1_S_d0_1 h_S_) main_v2 main_c
  let main_v4 : FVec F S8192x1 .f32 := Host.absf main_arg2
  let main_cst_0 : FVec F S_ .f32 := constant S_ .f32 0x7F800000#32
  let main_v5 : FVec F S8192x1 .f32 := broadcastInDim S8192x1 ![] bcast_S_S8192x1 main_cst_0
  let main_v6 : IVec S8192x1 1 := cmpf .olt main_v4 main_v5
  let main_c_1 : IVec S_ 1 := constantI S_ 1 1#1
  let main_v7 : IVec S_ 1 := (fun x v => Host.reduce IntOp.andi x v reducesTo_S8192x1_S_d0_1 h_S_) main_v6 main_c_1
  let main_v8 : IVec S_ 1 := andi main_v3 main_v7
  main_v8
-- ==== Kernel.lean ====
abbrev S8192 : Shape := ⟨1, ![8192]⟩
abbrev S8192x1 : Shape := ⟨2, ![8192, 1]⟩
abbrev S1x8192 : Shape := ⟨2, ![1, 8192]⟩
abbrev S1x1 : Shape := ⟨2, ![1, 1]⟩
abbrev S128x1 : Shape := ⟨2, ![128, 1]⟩
abbrev S128x8192 : Shape := ⟨2, ![128, 8192]⟩
abbrev S128 : Shape := ⟨1, ![128]⟩
abbrev S1 : Shape := ⟨1, ![1]⟩
abbrev S_ : Shape := ⟨0, ![]⟩

abbrev nBuf : Space → Nat
  | .hbm => 31
  | .vmem => 12
  | .smem => 0
  | _ => 0

abbrev bufTy : (tb : Table) → Fin (tcTables nBuf tb) → BufTy
  | .hbm, ⟨0, _⟩ => ⟨S8192, .i1⟩
  | .hbm, ⟨1, _⟩ => ⟨S8192x1, .f32⟩
  | .hbm, ⟨2, _⟩ => ⟨S8192x1, .f32⟩
  | .hbm, ⟨3, _⟩ => ⟨S8192, .f32⟩
  | .hbm, ⟨4, _⟩ => ⟨S8192, .f32⟩
  | .hbm, ⟨5, _⟩ => ⟨S8192, .f32⟩
  | .hbm, ⟨6, _⟩ => ⟨S8192, .f32⟩
  | .hbm, ⟨7, _⟩ => ⟨S8192x1, .f32⟩
  | .hbm, ⟨8, _⟩ => ⟨S8192x1, .f32⟩
  | .hbm, ⟨9, _⟩ => ⟨S8192x1, .f32⟩
  | .hbm, ⟨10, _⟩ => ⟨S1x8192, .f32⟩
  | .hbm, ⟨11, _⟩ => ⟨S1x8192, .f32⟩
  | .hbm, ⟨12, _⟩ => ⟨S1x8192, .f32⟩
  | .hbm, ⟨13, _⟩ => ⟨S1x1, .f32⟩
  | .hbm, ⟨14, _⟩ => ⟨S1x1, .f32⟩
  | .hbm, ⟨15, _⟩ => ⟨S1x1, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S_, .f32⟩
  | .local _ .vmem, ⟨0, _⟩ => ⟨S128x1, .f32⟩
  | .local _ .vmem, ⟨1, _⟩ => ⟨S128x1, .f32⟩
  | .local _ .vmem, ⟨2, _⟩ => ⟨S128x1, .f32⟩
  | .local _ .vmem, ⟨3, _⟩ => ⟨S128x1, .f32⟩
  | .local _ .vmem, ⟨4, _⟩ => ⟨S128x1, .f32⟩
  | .local _ .vmem, ⟨5, _⟩ => ⟨S128x1, .f32⟩
  | .local _ .vmem, ⟨6, _⟩ => ⟨S1x8192, .f32⟩
  | .local _ .vmem, ⟨7, _⟩ => ⟨S1x8192, .f32⟩
  | .local _ .vmem, ⟨8, _⟩ => ⟨S1x8192, .f32⟩
  | .local _ .vmem, ⟨9, _⟩ => ⟨S1x1, .f32⟩
  | .local _ .vmem, ⟨10, _⟩ => ⟨S1x1, .f32⟩
  | .local _ .vmem, ⟨11, _⟩ => ⟨S1x1, .f32⟩
  | _, _ => ⟨S8192, .i1⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10_0 : Ref sig .tc := ⟨.hbm, 13, rfl⟩
abbrev main_v10_1 : Ref sig .tc := ⟨.hbm, 14, rfl⟩
abbrev main_v10_2 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_cst : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_cst_0 : Ref sig .tc := ⟨.hbm, 26, rfl⟩
abbrev main_v20 : Ref sig .tc := ⟨.hbm, 27, rfl⟩
abbrev main_v21 : Ref sig .tc := ⟨.hbm, 28, rfl⟩
abbrev main_cst_1 : Ref sig .tc := ⟨.hbm, 29, rfl⟩
abbrev main_v22 : Ref sig .tc := ⟨.hbm, 30, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S128x1 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x8192 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x8192 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x8192 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

class Facts₀ : Prop where
  shapeCasts_S8192x1_S8192 : S8192x1.ShapeCasts S8192
  shapeCasts_S8192_S8192x1 : S8192.ShapeCasts S8192x1
  shapeCasts_S8192_S1x8192 : S8192.ShapeCasts S1x8192
  inb_S1x1_S1x1_0_0 : ∀ a, (![0, 0] : Fin 2 → Nat) a + S1x1.size a ≤ S1x1.size a
  h_S1x1 : 0 < S1x1.numel
  inb_S128x1_S128x1_0_0 : ∀ a, (![0, 0] : Fin 2 → Nat) a + S128x1.size a ≤ S128x1.size a
  h_S128x1 : 0 < S128x1.numel
  shapeCasts_S128x1_S128x1 : S128x1.ShapeCasts S128x1
  inb_S1x8192_S1x8192_0_0 : ∀ a, (![0, 0] : Fin 2 → Nat) a + S1x8192.size a ≤ S1x8192.size a
  h_S1x8192 : 0 < S1x8192.numel
  shapeCasts_S1x8192_S1x8192 : S1x8192.ShapeCasts S1x8192
  broadcasts_S128x1_S128x8192 : S128x1.Broadcasts S128x8192
  broadcasts_S1x8192_S128x8192 : S1x8192.Broadcasts S128x8192
  natLt_1_32 : 1 < 32
  reduces_S128x8192_S128 : S128x8192.Reduces [1] S128
  shapeCasts_S128_S128x1 : S128.ShapeCasts S128x1
  reduces_S128x1_S1 : S128x1.Reduces [0] S1
  shapeCasts_S1_S1x1 : S1.ShapeCasts S1x1
  shapeCasts_S1x1_S1x1 : S1x1.ShapeCasts S1x1
  shapeCasts_S1x1_S_ : S1x1.ShapeCasts S_
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x1.size a ≤ S8192x1.size a
  hwx0_0 : ∀ i : grid0.Coords, EltTy.bits .f32 = 32 ∨ (Rect.block (s := S8192x1) S128x1.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128x1.size a ≤ S8192x1.size a
  hwx0_1 : ∀ i : grid0.Coords, EltTy.bits .f32 = 32 ∨ (Rect.block (s := S8192x1) S128x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S128x1.size a ≤ S8192x1.size a
  hwx0_2 : ∀ i : grid0.Coords, EltTy.bits .f32 = 32 ∨ (Rect.block (s := S8192x1) S128x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x8192.size a ≤ S1x8192.size a
  hwx0_3 : ∀ i : grid0.Coords, EltTy.bits .f32 = 32 ∨ (Rect.block (s := S1x8192) S1x8192.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x8192.size a ≤ S1x8192.size a
  hwx0_4 : ∀ i : grid0.Coords, EltTy.bits .f32 = 32 ∨ (Rect.block (s := S1x8192) S1x8192.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x8192.size a ≤ S1x8192.size a
  hwx0_5 : ∀ i : grid0.Coords, EltTy.bits .f32 = 32 ∨ (Rect.block (s := S1x8192) S1x8192.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x1.size a ≤ S1x1.size a
  hwx0_6 : ∀ i : grid0.Coords, EltTy.bits .f32 = 32 ∨ (Rect.block (s := S1x1) S1x1.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x1.size a ≤ S1x1.size a
  hwx0_7 : ∀ i : grid0.Coords, EltTy.bits .f32 = 32 ∨ (Rect.block (s := S1x1) S1x1.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x1.size a ≤ S1x1.size a
  hwx0_8 : ∀ i : grid0.Coords, EltTy.bits .f32 = 32 ∨ (Rect.block (s := S1x1) S1x1.size (cc0_transform_8 i) (hinb0_8 i)).WholeWords (EltTy.packing .f32)

variable [Facts₀]

abbrev win0_0 : Pipeline.Window sig grid0 :=
  Pipeline.Window.ofSpec (Memref.whole main_v4) S128x1.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v5) S128x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v6) S128x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v7) S1x8192.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v8) S1x8192.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v9) S1x8192.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v10_0) S1x1.size cc0_transform_6 reads0_6 true true 1 stage0_6 sem0_6
    hrank0 hreads0_6 hinb0_6 nbuf0_6 (Memref.isWhole_whole _) hwx0_6 hstage0_6

abbrev win0_7 : Pipeline.Window sig grid0 :=
  Pipeline.Window.ofSpec (Memref.whole main_v10_1) S1x1.size cc0_transform_7 reads0_7 true true 1 stage0_7 sem0_7
    hrank0 hreads0_7 hinb0_7 nbuf0_7 (Memref.isWhole_whole _) hwx0_7 hstage0_7

abbrev win0_8 : Pipeline.Window sig grid0 :=
  Pipeline.Window.ofSpec (Memref.whole main_v10_2) S1x1.size cc0_transform_8 reads0_8 true true 1 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

class Facts : Prop extends Facts₀ where

variable [Facts]
-- ==== ReferenceIdeal.lean ====
abbrev S8192 : Shape := ⟨1, ![8192]⟩
abbrev S8192x1 : Shape := ⟨2, ![8192, 1]⟩
abbrev S1x8192 : Shape := ⟨2, ![1, 8192]⟩
abbrev S8192x8192 : Shape := ⟨2, ![8192, 8192]⟩
abbrev S_ : Shape := ⟨0, ![]⟩

abbrev nBuf : Space → Nat
  | .hbm => 67
  | .vmem => 0
  | .smem => 0
  | _ => 0

abbrev bufTy : (tb : Table) → Fin (tcTables nBuf tb) → BufTy
  | .hbm, ⟨0, _⟩ => ⟨S8192, .i1⟩
  | .hbm, ⟨1, _⟩ => ⟨S8192x1, .f32⟩
  | .hbm, ⟨2, _⟩ => ⟨S8192x1, .f32⟩
  | .hbm, ⟨3, _⟩ => ⟨S8192, .f32⟩
  | .hbm, ⟨4, _⟩ => ⟨S8192, .f32⟩
  | .hbm, ⟨5, _⟩ => ⟨S8192, .f32⟩
  | .hbm, ⟨6, _⟩ => ⟨S8192x1, .f32⟩
  | .hbm, ⟨7, _⟩ => ⟨S1x8192, .f32⟩
  | .hbm, ⟨8, _⟩ => ⟨S8192x1, .i1⟩
  | .hbm, ⟨9, _⟩ => ⟨S8192x8192, .f32⟩
  | .hbm, ⟨10, _⟩ => ⟨S8192x8192, .f32⟩
  | .hbm, ⟨11, _⟩ => ⟨S8192x8192, .i1⟩
  | .hbm, ⟨12, _⟩ => ⟨S8192x8192, .f32⟩
  | .hbm, ⟨13, _⟩ => ⟨S8192x8192, .f32⟩
  | .hbm, ⟨14, _⟩ => ⟨S8192x8192, .i1⟩
  | .hbm, ⟨15, _⟩ => ⟨S1x8192, .i1⟩
  | .hbm, ⟨16, _⟩ => ⟨S1x8192, .i1⟩
  | .hbm, ⟨17, _⟩ => ⟨S8192x8192, .i1⟩
  | .hbm, ⟨18, _⟩ => ⟨S8192x8192, .i1⟩
  | .hbm, ⟨19, _⟩ => ⟨S8192x8192, .i1⟩
  | .hbm, ⟨20, _⟩ => ⟨S8192x8192, .i1⟩
  | .hbm, ⟨21, _⟩ => ⟨S8192x8192, .i1⟩
  | .hbm, ⟨22, _⟩ => ⟨S1x8192, .f32⟩
  | .hbm, ⟨23, _⟩ => ⟨S8192x1, .f32⟩
  | .hbm, ⟨24, _⟩ => ⟨S8192x8192, .f32⟩
  | .hbm, ⟨25, _⟩ => ⟨S8192x8192, .f32⟩
  | .hbm, ⟨26, _⟩ => ⟨S8192x8192, .f32⟩
  | .hbm, ⟨27, _⟩ => ⟨S_, .f32⟩
  | .hbm, ⟨28, _⟩ => ⟨S8192x8192, .f32⟩
  | .hbm, ⟨29, _⟩ => ⟨S8192x8192, .i1⟩
  | .hbm, ⟨30, _⟩ => ⟨S8192x8192, .i1⟩
  | .hbm, ⟨31, _⟩ => ⟨S_, .f32⟩
  | .hbm, ⟨32, _⟩ => ⟨S_, .f32⟩
  | .hbm, ⟨33, _⟩ => ⟨S8192x8192, .f32⟩
  | .hbm, ⟨34, _⟩ => ⟨S8192x8192, .f32⟩
  | .hbm, ⟨35, _⟩ => ⟨S8192x8192, .f32⟩
  | .hbm, ⟨36, _⟩ => ⟨S8192x8192, .f32⟩
  | .hbm, ⟨37, _⟩ => ⟨S_, .f32⟩
  | .hbm, ⟨38, _⟩ => ⟨S_, .f32⟩
  | .hbm, ⟨39, _⟩ => ⟨S8192x8192, .f32⟩
  | .hbm, ⟨40, _⟩ => ⟨S_, .f32⟩
  | .hbm, ⟨41, _⟩ => ⟨S8192x8192, .f32⟩
  | .hbm, ⟨42, _⟩ => ⟨S8192x8192, .i1⟩
  | .hbm, ⟨43, _⟩ => ⟨S8192x8192, .i1⟩
  | .hbm, ⟨44, _⟩ => ⟨S_, .f32⟩
  | .hbm, ⟨45, _⟩ => ⟨S_, .f32⟩
  | .hbm, ⟨46, _⟩ => ⟨S8192x8192, .f32⟩
  | .hbm, ⟨47, _⟩ => ⟨S8192x8192, .f32⟩
  | .hbm, ⟨48, _⟩ => ⟨S8192x8192, .f32⟩
  | .hbm, ⟨49, _⟩ => ⟨S8192x8192, .f32⟩
  | .hbm, ⟨50, _⟩ => ⟨S_, .f32⟩
  | .hbm, ⟨51, _⟩ => ⟨S_, .f32⟩
  | .hbm, ⟨52, _⟩ => ⟨S8192x8192, .f32⟩
  | .hbm, ⟨53, _⟩ => ⟨S_, .f32⟩
  | .hbm, ⟨54, _⟩ => ⟨S_, .f32⟩
  | .hbm, ⟨55, _⟩ => ⟨S_, .f32⟩
  | .hbm, ⟨56, _⟩ => ⟨S_, .f32⟩
  | .hbm, ⟨57, _⟩ => ⟨S_, .f32⟩
  | .hbm, ⟨58, _⟩ => ⟨S_, .f32⟩
  | .hbm, ⟨59, _⟩ => ⟨S_, .f32⟩
  | .hbm, ⟨60, _⟩ => ⟨S_, .f32⟩
  | .hbm, ⟨61, _⟩ => ⟨S_, .f32⟩
  | .hbm, ⟨62, _⟩ => ⟨S_, .f32⟩
  | .hbm, ⟨63, _⟩ => ⟨S_, .f32⟩
  | .hbm, ⟨64, _⟩ => ⟨S_, .f32⟩
  | .hbm, ⟨65, _⟩ => ⟨S_, .f32⟩
  | .hbm, ⟨66, _⟩ => ⟨S_, .f32⟩
  | _, _ => ⟨S8192, .i1⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_v22 : Ref sig .tc := ⟨.hbm, 25, rfl⟩
abbrev main_v23 : Ref sig .tc := ⟨.hbm, 26, rfl⟩
abbrev main_cst : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_cst_0 : Ref sig .tc := ⟨.hbm, 31, rfl⟩
abbrev main_cst_1 : Ref sig .tc := ⟨.hbm, 32, rfl⟩
abbrev main_call0_v0 : Ref sig .tc := ⟨.hbm, 33, rfl⟩
abbrev main_call0_v1 : Ref sig .tc := ⟨.hbm, 34, rfl⟩
abbrev main_v27 : Ref sig .tc := ⟨.hbm, 35, rfl⟩
abbrev main_v28 : Ref sig .tc := ⟨.hbm, 36, rfl⟩
abbrev main_cst_2 : Ref sig .tc := ⟨.hbm, 37, rfl⟩
abbrev main_v29 : Ref sig .tc := ⟨.hbm, 38, rfl⟩
abbrev main_v30 : Ref sig .tc := ⟨.hbm, 39, rfl⟩
abbrev main_cst_3 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_cst_4 : Ref sig .tc := ⟨.hbm, 44, rfl⟩
abbrev main_cst_5 : Ref sig .tc := ⟨.hbm, 45, rfl⟩
abbrev main_call1_v0 : Ref sig .tc := ⟨.hbm, 46, rfl⟩
abbrev main_call1_v1 : Ref sig .tc := ⟨.hbm, 47, rfl⟩
abbrev main_v34 : Ref sig .tc := ⟨.hbm, 48, rfl⟩
abbrev main_v35 : Ref sig .tc := ⟨.hbm, 49, rfl⟩
abbrev main_cst_6 : Ref sig .tc := ⟨.hbm, 50, rfl⟩
abbrev main_v36 : Ref sig .tc := ⟨.hbm, 51, rfl⟩
abbrev main_v37 : Ref sig .tc := ⟨.hbm, 52, rfl⟩
abbrev main_cst_7 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_cst_8 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_cst_9 : Ref sig .tc := ⟨.hbm, 62, rfl⟩
abbrev main_v45 : Ref sig .tc := ⟨.hbm, 63, rfl⟩
abbrev main_v46 : Ref sig .tc := ⟨.hbm, 64, rfl⟩
abbrev main_cst_10 : Ref sig .tc := ⟨.hbm, 65, rfl⟩
abbrev main_v47 : Ref sig .tc := ⟨.hbm, 66, rfl⟩

abbrev nD : Nat := 1
abbrev τ : Topo := Topo.v7x

variable {F : FTy → Type} [FloatOps F]

class Facts₀ : Prop where
  shapeCasts_S8192x1_S8192 : S8192x1.ShapeCasts S8192
  bcast_S8192_S8192x1_0 : S8192.BroadcastsInDim S8192x1 (![0] : Fin 1 → Fin S8192x1.rank)
  bcast_S8192_S1x8192_1 : S8192.BroadcastsInDim S1x8192 (![1] : Fin 1 → Fin S1x8192.rank)
  bcast_S8192x1_S8192x8192_0_1 : S8192x1.BroadcastsInDim S8192x8192 (![0, 1] : Fin 2 → Fin S8192x8192.rank)
  bcast_S1x8192_S8192x8192_0_1 : S1x8192.BroadcastsInDim S8192x8192 (![0, 1] : Fin 2 → Fin S8192x8192.rank)
  bcast_S_S8192x8192 : S_.BroadcastsInDim S8192x8192 (![] : Fin 0 → Fin S8192x8192.rank)
  reducesTo_S8192x8192_S_d0_1 : S8192x8192.ReducesTo [0, 1] S_
  h_S_ : 0 < S_.numel

variable [Facts₀]

class Facts : Prop extends Facts₀ where

variable [Facts]
-- ==== Proof.KernelPieces.lean ====
/-
  What each grid point leaves in the three one-word output blocks, as arithmetic on what it loaded.

  At every point the body loads a block of 128 sample rows (their times, event indicators and risks, each [128,1]) and the
  full rows of all 8192 samples ([1,8192] each), forms the [128,8192] table of comparable pairs and the two masked tables, and
  adds each table's total to the word the output block already holds. At the first point it first stores a zero word into
  each block and reads it back, so the first point leaves 0 + (its totals); every later point leaves (what the point
  before left) + (its totals). These statements hold for any float values: nothing is computed here, the stores are
  only read back.
-/
import proofs.«138423_j1692217114660_1_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem

namespace Cert.KernelIdeal.Counts

open Cert.KernelIdeal Cert.KernelIdeal.Gen

variable {F : FTy → Type} [FloatOps F]

theorem hz : (![0, 0] : Fin 2 → Nat) = fun _ => 0 := funext fun a => by fin_cases a <;> rfl

/-- A later point, first block: the word it held plus the point's concordant total. -/
theorem out_B_6 (c : Dev nD) (i : grid0.Coords)
    (a1 : Memref sig .tc .vmem S128x1 .f32) (h1 : a1.IsWhole) (a2 : Memref sig .tc .vmem S128x1 .f32) (h2 : a2.IsWhole)
    (a3 : Memref sig .tc .vmem S128x1 .f32) (h3 : a3.IsWhole) (a4 : Memref sig .tc .vmem S1x8192 .f32) (h4 : a4.IsWhole)
    (a5 : Memref sig .tc .vmem S1x8192 .f32) (h5 : a5.IsWhole) (a6 : Memref sig .tc .vmem S1x8192 .f32) (h6 : a6.IsWhole)
    (a7 : Memref sig .tc .vmem S1x1 .f32) (h7 : a7.IsWhole) (a8 : Memref sig .tc .vmem S1x1 .f32) (h8 : a8.IsWhole)
    (a9 : Memref sig .tc .vmem S1x1 .f32) (h9 : a9.IsWhole) (hc : ¬cond0_0 i)
    (x0 x1 x2 : Vec F S128x1 .f32) (x3 x4 x5 : Vec F S1x8192 .f32) (xo6 xo7 xo8 : Vec F S1x1 .f32) :
    out0_B_6 c i a1 h1 a2 h2 a3 h3 a4 h4 a5 h5 a6 h6 a7 h7 a8 h8 a9 h9 hc x0 x1 x2 x3 x4 x5 xo6 xo7 xo8
      = k0_pay1 (k0_pay7 x0 x1 x3 x4) (k0_pay9 x2 x5) xo6 := by
  unfold out0_B_6
  rw [View.read_writes_eq_canon _ _ _ (cover0_B_6 c i a1 h1 a2 h2 a3 h3 a4 h4 a5 h5 a6 h6 a7 h7 a8 h8 a9 h9 hc x0 x1 x2 x3 x4 x5 xo6 xo7 xo8)]
  unfold kernelRun0_B
  dsimp only
  sl_unfold_words
  rw [View.canon_unit_zero hz]
  simp only [View.readAt_eq_ld, h1.read_unread, h2.read_unread, h3.read_unread, h4.read_unread, h5.read_unread, h6.read_unread,
    h7.read_unread, h8.read_unread, h9.read_unread, View.ld_unit_zero (S := S128x1) hz, View.ld_unit_zero (S := S1x8192) hz,
    View.ld_unit_zero (S := S1x1) hz]

/-- A later point, second block: the word it held plus the point's tied total. -/
theorem out_B_7 (c : Dev nD) (i : grid0.Coords)
    (a1 : Memref sig .tc .vmem S128x1 .f32) (h1 : a1.IsWhole) (a2 : Memref sig .tc .vmem S128x1 .f32) (h2 : a2.IsWhole)
    (a3 : Memref sig .tc .vmem S128x1 .f32) (h3 : a3.IsWhole) (a4 : Memref sig .tc .vmem S1x8192 .f32) (h4 : a4.IsWhole)
    (a5 : Memref sig .tc .vmem S1x8192 .f32) (h5 : a5.IsWhole) (a6 : Memref sig .tc .vmem S1x8192 .f32) (h6 : a6.IsWhole)
    (a7 : Memref sig .tc .vmem S1x1 .f32) (h7 : a7.IsWhole) (a8 : Memref sig .tc .vmem S1x1 .f32) (h8 : a8.IsWhole)
    (a9 : Memref sig .tc .vmem S1x1 .f32) (h9 : a9.IsWhole) (hc : ¬cond0_0 i)
    (x0 x1 x2 : Vec F S128x1 .f32) (x3 x4 x5 : Vec F S1x8192 .f32) (xo6 xo7 xo8 : Vec F S1x1 .f32) :
    out0_B_7 c i a1 h1 a2 h2 a3 h3 a4 h4 a5 h5 a6 h6 a7 h7 a8 h8 a9 h9 hc x0 x1 x2 x3 x4 x5 xo6 xo7 xo8
      = k0_pay2 (k0_pay7 x0 x1 x3 x4) (k0_pay10 x2 x5) (k0_pay11 (F := F)) xo7 := by
  unfold out0_B_7
  rw [View.read_writes_eq_canon _ _ _ (cover0_B_7 c i a1 h1 a2 h2 a3 h3 a4 h4 a5 h5 a6 h6 a7 h7 a8 h8 a9 h9 hc x0 x1 x2 x3 x4 x5 xo6 xo7 xo8)]
  unfold kernelRun0_B
  dsimp only
  sl_unfold_words
  rw [View.canon_unit_zero hz]
  simp only [View.readAt_eq_ld, h1.read_unread, h2.read_unread, h3.read_unread, h4.read_unread, h5.read_unread, h6.read_unread,
    h7.read_unread, h8.read_unread, h9.read_unread, View.ld_unit_zero (S := S128x1) hz, View.ld_unit_zero (S := S1x8192) hz,
    View.ld_unit_zero (S := S1x1) hz]

/-- A later point, third block: the word it held plus the point's comparable total. -/
theorem out_B_8 (c : Dev nD) (i : grid0.Coords)
    (a1 : Memref sig .tc .vmem S128x1 .f32) (h1 : a1.IsWhole) (a2 : Memref sig .tc .vmem S128x1 .f32) (h2 : a2.IsWhole)
    (a3 : Memref sig .tc .vmem S128x1 .f32) (h3 : a3.IsWhole) (a4 : Memref sig .tc .vmem S1x8192 .f32) (h4 : a4.IsWhole)
    (a5 : Memref sig .tc .vmem S1x8192 .f32) (h5 : a5.IsWhole) (a6 : Memref sig .tc .vmem S1x8192 .f32) (h6 : a6.IsWhole)
    (a7 : Memref sig .tc .vmem S1x1 .f32) (h7 : a7.IsWhole) (a8 : Memref sig .tc .vmem S1x1 .f32) (h8 : a8.IsWhole)
    (a9 : Memref sig .tc .vmem S1x1 .f32) (h9 : a9.IsWhole) (hc : ¬cond0_0 i)
    (x0 x1 x2 : Vec F S128x1 .f32) (x3 x4 x5 : Vec F S1x8192 .f32) (xo6 xo7 xo8 : Vec F S1x1 .f32) :
    out0_B_8 c i a1 h1 a2 h2 a3 h3 a4 h4 a5 h5 a6 h6 a7 h7 a8 h8 a9 h9 hc x0 x1 x2 x3 x4 x5 xo6 xo7 xo8
      = k0_pay3 (k0_pay7 x0 x1 x3 x4) xo8 := by
  unfold out0_B_8
  rw [View.read_writes_eq_canon _ _ _ (cover0_B_8 c i a1 h1 a2 h2 a3 h3 a4 h4 a5 h5 a6 h6 a7 h7 a8 h8 a9 h9 hc x0 x1 x2 x3 x4 x5 xo6 xo7 xo8)]
  unfold kernelRun0_B
  dsimp only
  sl_unfold_words
  rw [View.canon_unit_zero hz]
  simp only [View.readAt_eq_ld, h1.read_unread, h2.read_unread, h3.read_unread, h4.read_unread, h5.read_unread, h6.read_unread,
    h7.read_unread, h8.read_unread, h9.read_unread, View.ld_unit_zero (S := S128x1) hz, View.ld_unit_zero (S := S1x8192) hz,
    View.ld_unit_zero (S := S1x1) hz]

/-- The first point, first block: the zero word it has just stored plus the point's concordant total. -/
theorem out_A_6 (c : Dev nD) (i : grid0.Coords)
    (a1 : Memref sig .tc .vmem S128x1 .f32) (h1 : a1.IsWhole) (a2 : Memref sig .tc .vmem S128x1 .f32) (h2 : a2.IsWhole)
    (a3 : Memref sig .tc .vmem S128x1 .f32) (h3 : a3.IsWhole) (a4 : Memref sig .tc .vmem S1x8192 .f32) (h4 : a4.IsWhole)
    (a5 : Memref sig .tc .vmem S1x8192 .f32) (h5 : a5.IsWhole) (a6 : Memref sig .tc .vmem S1x8192 .f32) (h6 : a6.IsWhole)
    (a7 : Memref sig .tc .vmem S1x1 .f32) (h7 : a7.IsWhole) (a8 : Memref sig .tc .vmem S1x1 .f32) (h8 : a8.IsWhole)
    (a9 : Memref sig .tc .vmem S1x1 .f32) (h9 : a9.IsWhole) (hc : cond0_0 i)
    (x0 x1 x2 : Vec F S128x1 .f32) (x3 x4 x5 : Vec F S1x8192 .f32) :
    out0_A_6 c i a1 h1 a2 h2 a3 h3 a4 h4 a5 h5 a6 h6 a7 h7 a8 h8 a9 h9 hc x0 x1 x2 x3 x4 x5
      = k0_pay1 (k0_pay7 x0 x1 x3 x4) (k0_pay9 x2 x5) (k0_pay4 (F := F)) := by
  unfold out0_A_6
  rw [View.read_writes_eq_canon _ _ _ (cover0_A_6 c i a1 h1 a2 h2 a3 h3 a4 h4 a5 h5 a6 h6 a7 h7 a8 h8 a9 h9 hc x0 x1 x2 x3 x4 x5)]
  unfold kernelRun0_A
  dsimp only
  sl_unfold_words
  rw [View.canon_cons_unit_zero (S := S1x1) hz, View.readCov_unit_zero (S := S1x1) _ hz]
  simp only [View.readAt_eq_ld, h1.read_unread, h2.read_unread, h3.read_unread, h4.read_unread, h5.read_unread, h6.read_unread,
    h7.read_unread, h8.read_unread, h9.read_unread, View.ld_unit_zero (S := S128x1) hz, View.ld_unit_zero (S := S1x8192) hz,
    View.ld_unit_zero (S := S1x1) hz]

/-- The first point, second block: the zero word plus the point's tied total. -/
theorem out_A_7 (c : Dev nD) (i : grid0.Coords)
    (a1 : Memref sig .tc .vmem S128x1 .f32) (h1 : a1.IsWhole) (a2 : Memref sig .tc .vmem S128x1 .f32) (h2 : a2.IsWhole)
    (a3 : Memref sig .tc .vmem S128x1 .f32) (h3 : a3.IsWhole) (a4 : Memref sig .tc .vmem S1x8192 .f32) (h4 : a4.IsWhole)
    (a5 : Memref sig .tc .vmem S1x8192 .f32) (h5 : a5.IsWhole) (a6 : Memref sig .tc .vmem S1x8192 .f32) (h6 : a6.IsWhole)
    (a7 : Memref sig .tc .vmem S1x1 .f32) (h7 : a7.IsWhole) (a8 : Memref sig .tc .vmem S1x1 .f32) (h8 : a8.IsWhole)
    (a9 : Memref sig .tc .vmem S1x1 .f32) (h9 : a9.IsWhole) (hc : cond0_0 i)
    (x0 x1 x2 : Vec F S128x1 .f32) (x3 x4 x5 : Vec F S1x8192 .f32) :
    out0_A_7 c i a1 h1 a2 h2 a3 h3 a4 h4 a5 h5 a6 h6 a7 h7 a8 h8 a9 h9 hc x0 x1 x2 x3 x4 x5
      = k0_pay2 (k0_pay7 x0 x1 x3 x4) (k0_pay10 x2 x5) (k0_pay11 (F := F)) (k0_pay5 (F := F)) := by
  unfold out0_A_7
  rw [View.read_writes_eq_canon _ _ _ (cover0_A_7 c i a1 h1 a2 h2 a3 h3 a4 h4 a5 h5 a6 h6 a7 h7 a8 h8 a9 h9 hc x0 x1 x2 x3 x4 x5)]
  unfold kernelRun0_A
  dsimp only
  sl_unfold_words
  rw [View.canon_cons_unit_zero (S := S1x1) hz, View.readCov_unit_zero (S := S1x1) _ hz]
  simp only [View.readAt_eq_ld, h1.read_unread, h2.read_unread, h3.read_unread, h4.read_unread, h5.read_unread, h6.read_unread,
    h7.read_unread, h8.read_unread, h9.read_unread, View.ld_unit_zero (S := S128x1) hz, View.ld_unit_zero (S := S1x8192) hz,
    View.ld_unit_zero (S := S1x1) hz]

/-- The first point, third block: the zero word plus the point's comparable total. -/
theorem out_A_8 (c : Dev nD) (i : grid0.Coords)
    (a1 : Memref sig .tc .vmem S128x1 .f32) (h1 : a1.IsWhole) (a2 : Memref sig .tc .vmem S128x1 .f32) (h2 : a2.IsWhole)
    (a3 : Memref sig .tc .vmem S128x1 .f32) (h3 : a3.IsWhole) (a4 : Memref sig .tc .vmem S1x8192 .f32) (h4 : a4.IsWhole)
    (a5 : Memref sig .tc .vmem S1x8192 .f32) (h5 : a5.IsWhole) (a6 : Memref sig .tc .vmem S1x8192 .f32) (h6 : a6.IsWhole)
    (a7 : Memref sig .tc .vmem S1x1 .f32) (h7 : a7.IsWhole) (a8 : Memref sig .tc .vmem S1x1 .f32) (h8 : a8.IsWhole)
    (a9 : Memref sig .tc .vmem S1x1 .f32) (h9 : a9.IsWhole) (hc : cond0_0 i)
    (x0 x1 x2 : Vec F S128x1 .f32) (x3 x4 x5 : Vec F S1x8192 .f32) :
    out0_A_8 c i a1 h1 a2 h2 a3 h3 a4 h4 a5 h5 a6 h6 a7 h7 a8 h8 a9 h9 hc x0 x1 x2 x3 x4 x5
      = k0_pay3 (k0_pay7 x0 x1 x3 x4) (k0_pay6 (F := F)) := by
  unfold out0_A_8
  rw [View.read_writes_eq_canon _ _ _ (cover0_A_8 c i a1 h1 a2 h2 a3 h3 a4 h4 a5 h5 a6 h6 a7 h7 a8 h8 a9 h9 hc x0 x1 x2 x3 x4 x5)]
  unfold kernelRun0_A
  dsimp only
  sl_unfold_words
  rw [View.canon_cons_unit_zero (S := S1x1) hz, View.readCov_unit_zero (S := S1x1) _ hz]
  simp only [View.readAt_eq_ld, h1.read_unread, h2.read_unread, h3.read_unread, h4.read_unread, h5.read_unread, h6.read_unread,
    h7.read_unread, h8.read_unread, h9.read_unread, View.ld_unit_zero (S := S128x1) hz, View.ld_unit_zero (S := S1x8192) hz,
    View.ld_unit_zero (S := S1x1) hz]

end Cert.KernelIdeal.Counts

end
-- ==== Proof.PairCount.lean ====
/-
  Counting ordered pairs (i, j) of 8192 samples.

  A pair is COMPARABLE when sample i has an event and either its time is strictly earlier than j's, or the two times
  are equal and j has no event:  comparable(i, j) = d_i ∧ (t_i < t_j ∨ (t_i = t_j ∧ ¬d_j)).
  Three counts are taken over all ordered pairs: the comparable pairs whose risk difference r_j - r_i is negative
  (concordant), those whose risk difference is at most 1e-8 in absolute value (tied), and all comparable pairs (total).
  One program forms each count as a sum of 0/1 numbers obtained by ARITHMETIC on 0/1 numbers
  (d_i · (lt + eq · (1 - d_j)), times a 0/1 mask); the other forms the same predicate by bit operations and
  selects 1 or 0. This module shows that the two spellings are the same number pair by pair (a case analysis on the
  bits: a strict inequality and an equality of extended reals never hold together, so lt + eq·(1 - d_j) never exceeds 1),
  states the final index as one function of the three counts, and regroups a sum over 8192 rows as 64 blocks of
  128 rows, which only uses that addition of extended reals is commutative and associative.
-/
import Idealize.ShloMosaic.PureOps.Ideal.Laws
import Idealize.ShloMosaic.Lib.ValueIdx

noncomputable section

namespace Cert.PairCount

open Idealize.ShloMosaic Idealize.ShloMosaic.ValueIdx

/-! ## Bits as numbers -/

/-- The word of `1.0` denotes the number 1. -/
theorem one_word : Ideal.ofBits .f32 0x3F800000#32 = 1 := by
  simp [Ideal.ofBits, Ideal.ieee, -EReal.coe_mul]; norm_num

/-- A one-bit word is 0 or 1. -/
theorem bit_cases (b : BitVec 1) : b = 0#1 ∨ b = 1#1 := by
  by_cases h : b = 1#1
  · exact Or.inr h
  · exact Or.inl (eq_zero_of_ne_one h)

/-- A bit read as a number by widening it to 32 bits and converting the signed integer: how a comparison's result
    enters the arithmetic. -/
def ofBit (b : BitVec 1) : EReal := FloatOps.sitofp (F := Ideal) .f32 (b.setWidth 32)

/-- A bit read as a number by converting the unsigned one-bit integer: how an event indicator enters the arithmetic. -/
def numBit (b : BitVec 1) : EReal := FloatOps.uitofp (F := Ideal) .f32 b

theorem ofBit_zero : ofBit 0#1 = 0 := by
  have h : ((0#1 : BitVec 1).setWidth 32).toInt = 0 := by decide
  show ((((0#1 : BitVec 1).setWidth 32).toInt : ℝ) : EReal) = 0
  rw [h]; simp

theorem ofBit_one : ofBit 1#1 = 1 := by
  have h : ((1#1 : BitVec 1).setWidth 32).toInt = 1 := by decide
  show ((((1#1 : BitVec 1).setWidth 32).toInt : ℝ) : EReal) = 1
  rw [h]; simp

theorem numBit_zero : numBit 0#1 = 0 := by
  show (((0#1 : BitVec 1).toNat : ℝ) : EReal) = 0
  simp

theorem numBit_one : numBit 1#1 = 1 := by
  show (((1#1 : BitVec 1).toNat : ℝ) : EReal) = 1
  simp

theorem one_sub_one : (1 : EReal) - 1 = 0 := by
  rw [← EReal.coe_one, ← EReal.coe_sub, sub_self, EReal.coe_zero]

/-- A strict inequality and an equality of the same two extended reals do not hold together. -/
theorem lt_eq_exclusive (x y : EReal) : ¬(Ideal.cmp .olt x y = 1#1 ∧ Ideal.cmp .oeq x y = 1#1) := by
  rintro ⟨hlt, heq⟩
  by_cases h : x = y
  · subst h
    simp [Ideal.cmp] at hlt
  · simp [Ideal.cmp, h] at heq

/-! ## The comparable-pair predicate, two spellings -/

/-- With bits `a` (event of i), `b` (event of j), `p` (t_i < t_j) and `q` (t_i = t_j), `p` and `q` never both set:
    the product-and-sum spelling a·(p + q·(1 - b)) is the bit a ∧ (p ∨ (q ∧ ¬b)) read as a number. -/
theorem comparable_eq (a b p q : BitVec 1) (hpq : ¬(p = 1#1 ∧ q = 1#1)) :
    numBit a * (ofBit p + ofBit q * (Ideal.ofBits .f32 0x3F800000#32 - numBit b))
      = numBit (IntOp.andi a (IntOp.ori p (IntOp.andi q (~~~b)))) := by
  rw [one_word]
  rcases bit_cases a with rfl | rfl <;> rcases bit_cases b with rfl | rfl <;>
    rcases bit_cases p with rfl | rfl <;> rcases bit_cases q with rfl | rfl
  all_goals first
    | exact absurd ⟨rfl, rfl⟩ hpq
    | simp [IntOp.andi, IntOp.ori, ofBit_zero, ofBit_one, numBit_zero, numBit_one, one_sub_one]

/-- A comparable-pair bit `c` times a 0/1 mask bit `s`, as numbers, is the selection of 1 where both bits are set, else 0. -/
theorem masked_eq (c s : BitVec 1) :
    numBit c * ofBit s
      = Scalar.select (IntOp.andi c s) (Ideal.ofBits .f32 0x3F800000#32) (Ideal.ofBits .f32 0x00000000#32) := by
  rw [one_word, Ideal.ofBits_zero_f32]
  rcases bit_cases c with rfl | rfl <;> rcases bit_cases s with rfl | rfl <;>
    simp [IntOp.andi, Scalar.select, ofBit_zero, ofBit_one, numBit_zero, numBit_one]

/-! ## The three pair terms and the index -/

section Terms

variable (d : Fin 8192 → BitVec 1) (t r : Fin 8192 → EReal)

/-- The pair (i, j) is comparable: i has an event and is strictly earlier than j, or as early as j while j has none. -/
def comparable (i j : Fin 8192) : BitVec 1 :=
  IntOp.andi (d i) (IntOp.ori (Ideal.cmp .olt (t i) (t j)) (IntOp.andi (Ideal.cmp .oeq (t i) (t j)) (~~~(d j))))

/-- 1 where the pair is comparable, else 0. -/
def comparableTerm (i j : Fin 8192) : EReal := numBit (comparable d t i j)

/-- 1 where the pair is comparable and the risk difference r_j - r_i is negative, else 0. -/
def concordantTerm (i j : Fin 8192) : EReal :=
  Scalar.select (IntOp.andi (comparable d t i j) (Ideal.cmp .olt (r j - r i) (Ideal.ofBits .f32 0x00000000#32)))
    (Ideal.ofBits .f32 0x3F800000#32) (Ideal.ofBits .f32 0x00000000#32)

/-- 1 where the pair is comparable and the risk difference is at most the word of 1e-8 in absolute value, else 0. -/
def tiedTerm (i j : Fin 8192) : EReal :=
  Scalar.select (IntOp.andi (comparable d t i j)
      (Ideal.cmp .ole (max (r j - r i) (-(r j - r i))) (Ideal.ofBits .f32 0x322BCC77#32)))
    (Ideal.ofBits .f32 0x3F800000#32) (Ideal.ofBits .f32 0x00000000#32)

/-- The product-and-sum spelling of the comparable pair is the comparable term. -/
theorem product_comparable (i j : Fin 8192) :
    numBit (d i) * (ofBit (Ideal.cmp .olt (t i) (t j))
        + ofBit (Ideal.cmp .oeq (t i) (t j)) * (Ideal.ofBits .f32 0x3F800000#32 - numBit (d j)))
      = comparableTerm d t i j :=
  comparable_eq _ _ _ _ (lt_eq_exclusive _ _)

/-- Times the mask "risk difference negative": the concordant term. -/
theorem product_concordant (i j : Fin 8192) :
    numBit (d i) * (ofBit (Ideal.cmp .olt (t i) (t j))
        + ofBit (Ideal.cmp .oeq (t i) (t j)) * (Ideal.ofBits .f32 0x3F800000#32 - numBit (d j)))
      * ofBit (Ideal.cmp .olt (r j - r i) (Ideal.ofBits .f32 0x00000000#32))
      = concordantTerm d t r i j := by
  rw [product_comparable]
  exact masked_eq _ _

/-- Times the mask "risk difference at most 1e-8 in absolute value": the tied term. -/
theorem product_tied (i j : Fin 8192) :
    numBit (d i) * (ofBit (Ideal.cmp .olt (t i) (t j))
        + ofBit (Ideal.cmp .oeq (t i) (t j)) * (Ideal.ofBits .f32 0x3F800000#32 - numBit (d j)))
      * ofBit (Ideal.cmp .ole (max (r j - r i) (-(r j - r i))) (Ideal.ofBits .f32 0x322BCC77#32))
      = tiedTerm d t r i j := by
  rw [product_comparable]
  exact masked_eq _ _

end Terms

/-- The concordance index from the three counts: with discordant = total - concordant - tied,
    1 - (discordant + 0.5·tied) / (discordant + concordant + tied + 1e-7), the literals by their words. -/
def index (conc tied total : EReal) : EReal :=
  Ideal.ofBits .f32 0x3F800000#32
    - Ideal.div (total - conc - tied + Ideal.ofBits .f32 0x3F000000#32 * tied)
        (total - conc - tied + conc + tied + Ideal.ofBits .f32 0x33D6BF95#32)

/-! ## The samples, read from the three argument arrays -/

/-- Sample i's event indicator: entry i of the bit array [8192]. -/
def evt (x0 : (⟨1, ![8192]⟩ : Shape).Idx → BitVec 1) (i : Fin 8192) : BitVec 1 := x0 (ix1 i)

/-- Sample i's time: the exponential of entry (i, 0) of the log-time array [8192,1]. -/
def time (x1 : (⟨2, ![8192, 1]⟩ : Shape).Idx → EReal) (i : Fin 8192) : EReal := Ideal.exp (x1 (ix2 i (0 : Fin 1)))

/-- Sample i's risk estimate: entry (i, 0) of the estimate array [8192,1]. -/
def risk (x2 : (⟨2, ![8192, 1]⟩ : Shape).Idx → EReal) (i : Fin 8192) : EReal := x2 (ix2 i (0 : Fin 1))

end Cert.PairCount

end
-- ==== Proof.LibGridSum.lean ====
/-
  Sums over the entries of a matrix at the ideal values, taken in two stages, and sums over rows taken block by block.

  * A column [M,1] spread over N columns reads, at (a, k), the column's entry a.
  * The sum of ALL entries of an [M,N] matrix computed as the row sums [M], viewed as a column [M,1], summed down the
    column to [1] and viewed [1,1], is the double sum over a and k of the entries: the lane sum over one axis is a
    Fin-indexed sum, the sum into an all-unit shape is the total over the source's indices, and a rank-2 index set is
    the product of its coordinate ranges.
  * A sum over 8192 rows is the sum over 64 blocks of the sums over the 128 rows of each block (row 128·b + a), and the
    running sums block after block end at that total. Only commutativity and associativity of the addition are used,
    so the statements hold in any commutative monoid, the extended reals among them.
  Nothing here mentions a program: the shapes are literal ranks with symbolic extents.
-/
import Idealize.ShloMosaic.PureOps.Ideal.Laws
import Idealize.ShloMosaic.Lib.ValueIdx
import Idealize.ShloMosaic.Lib.ValueLayout
import Idealize.ShloMosaic.Lib.Pipeline.Value

noncomputable section

namespace Cert.GridSum

open Idealize.ShloMosaic Idealize.ShloMosaic.ValueIdx

/-- A column [M,1] spread over N columns reads, at (a, k), the column's entry a. -/
theorem column_spread_apply {α : Type} {M N : Nat} (v : (⟨2, ![M, 1]⟩ : Shape).Idx → α)
    (h : (⟨2, ![M, 1]⟩ : Shape).Broadcasts ⟨2, ![M, N]⟩) (a : Fin M) (k : Fin N) :
    broadcastTo ⟨2, ![M, N]⟩ v h (ix2 a k) = v (ix2 a (0 : Fin 1)) := by
  refine broadcastTo_apply v h (ix2 a k) (ix2 a (0 : Fin 1)) fun ax => ?_
  match ax with
  | ⟨0, _⟩ =>
    show a.val = if M = 1 then 0 else a.val
    split
    · have := a.isLt; omega
    · rfl
  | ⟨1, _⟩ => show 0 = if (1 : Nat) = 1 then 0 else k.val; rw [if_pos rfl]

/-- The row sums [M] of an [M,N] matrix viewed as a column [M,1] read, at (a, 0), the sum over k of the entries (a, k). -/
theorem row_sums_column_apply {M N : Nat} (src : FVec Ideal ⟨2, ![M, N]⟩ .f32) (acc : BitVec (FTy.bits .f32))
    (h : (⟨2, ![M, N]⟩ : Shape).Reduces [1] ⟨1, ![M]⟩) (hφ : FKind.Formats .f32) (hacc : acc = FKind.add.neutral .f32 hφ)
    (h1 : (⟨1, ![M]⟩ : Shape).ShapeCasts ⟨2, ![M, 1]⟩) (a : Fin M) (b : Fin 1) :
    shapeCast ⟨2, ![M, 1]⟩ (multiReduction .add [1] ⟨1, ![M]⟩ src acc h hφ hacc) h1 (ix2 a b)
      = ∑ k : Fin N, src (ix2 a k) := by
  refine (shapeCast_apply _ h1 (ix2 a b) (ix1 a) ?_).trans ?_
  · rw [Shape.rowMajor_val_one, Shape.rowMajor_val_two]
    show a.val = a.val * 1 + b.val
    have := b.isLt; omega
  · refine (Ideal.multiReduction_add_single src acc h hφ hacc (ix1 a)).trans ?_
    refine Finset.sum_congr rfl fun k _ => congrArg src (funext fun ax => Fin.ext ?_)
    match ax with
    | ⟨0, _⟩ => rfl
    | ⟨1, _⟩ => rfl

/-- The sum of all entries of an [M,N] matrix taken as row sums, then down the column of row sums, viewed [1,1]:
    the double sum of the entries. -/
theorem all_entries_sum_apply {M N : Nat} (src : FVec Ideal ⟨2, ![M, N]⟩ .f32) (acc acc' : BitVec (FTy.bits .f32))
    (h : (⟨2, ![M, N]⟩ : Shape).Reduces [1] ⟨1, ![M]⟩) (hφ : FKind.Formats .f32) (hacc : acc = FKind.add.neutral .f32 hφ)
    (h1 : (⟨1, ![M]⟩ : Shape).ShapeCasts ⟨2, ![M, 1]⟩)
    (h' : (⟨2, ![M, 1]⟩ : Shape).Reduces [0] ⟨1, ![1]⟩) (hφ' : FKind.Formats .f32) (hacc' : acc' = FKind.add.neutral .f32 hφ')
    (h2 : (⟨1, ![1]⟩ : Shape).ShapeCasts ⟨2, ![1, 1]⟩) (y : (⟨2, ![1, 1]⟩ : Shape).Idx) :
    shapeCast ⟨2, ![1, 1]⟩
        (multiReduction .add [0] ⟨1, ![1]⟩
          (shapeCast ⟨2, ![M, 1]⟩ (multiReduction .add [1] ⟨1, ![M]⟩ src acc h hφ hacc) h1) acc' h' hφ' hacc') h2 y
      = ∑ a : Fin M, ∑ k : Fin N, src (ix2 a k) := by
  refine (shapeCast_apply _ h2 y (ix1 (0 : Fin 1)) ?_).trans ?_
  · rw [Shape.rowMajor_val_one, Shape.rowMajor_val_two]
    have h0 : (y 0).val < 1 := (y 0).isLt
    have h1' : (y 1).val < 1 := (y 1).isLt
    show 0 = (y 0).val * 1 + (y 1).val
    omega
  · refine (Ideal.multiReduction_add_total _ acc' h' (fun b => by match b with | ⟨0, _⟩ => rfl) hφ' hacc' (ix1 (0 : Fin 1))).trans ?_
    rw [sum_idx2]
    refine Finset.sum_congr rfl fun a _ => ?_
    rw [Fin.sum_univ_one]
    exact row_sums_column_apply src acc h hφ hacc h1 a 0

/-- A vector [n] viewed as a column [n,1] reads, at (i, u), the vector's entry i. -/
theorem vector_as_column_apply {α : Type} {n : Nat} (v : (⟨1, ![n]⟩ : Shape).Idx → α)
    (h : (⟨1, ![n]⟩ : Shape).ShapeCasts ⟨2, ![n, 1]⟩) (i : Fin n) (u : Fin 1) :
    shapeCast ⟨2, ![n, 1]⟩ v h (ix2 i u) = v (ix1 i) :=
  shapeCast_apply v h _ _ (by
    rw [Shape.rowMajor_val_one, Shape.rowMajor_val_two]
    show i.val = i.val * 1 + u.val
    have := u.isLt; omega)

/-- A column [n,1] viewed as a vector [n] reads, at i, the column's entry (i, 0). -/
theorem column_as_vector_apply {α : Type} {n : Nat} (x : (⟨2, ![n, 1]⟩ : Shape).Idx → α)
    (h : (⟨2, ![n, 1]⟩ : Shape).ShapeCasts ⟨1, ![n]⟩) (i : Fin n) :
    shapeCast ⟨1, ![n]⟩ x h (ix1 i) = x (ix2 i (0 : Fin 1)) :=
  shapeCast_apply x h _ _ (by
    rw [Shape.rowMajor_val_two, Shape.rowMajor_val_one]
    show i.val * 1 + 0 = i.val
    omega)

/-! ## Rows in blocks -/

/-- Row a of block s, among 8192 rows in 64 blocks of 128. -/
def blockRow (s : ℕ) (hs : s < 64) (a : Fin 128) : Fin 8192 := ⟨128 * s + a.val, by have := a.isLt; omega⟩

theorem blockRow_val (s : ℕ) (hs : s < 64) (a : Fin 128) : (blockRow s hs a).val = 128 * s + a.val := rfl

/-- A sum over 8192 rows is the sum over 64 blocks of the sums over each block's 128 rows. -/
theorem sum_blocks {A : Type*} [AddCommMonoid A] (f : Fin 8192 → A) :
    ∑ i : Fin 8192, f i
      = ∑ b : Fin 64, ∑ a : Fin 128, f ⟨128 * b.val + a.val, by have := b.isLt; have := a.isLt; omega⟩ := by
  have e := Equiv.sum_comp (finProdFinEquiv (m := 64) (n := 128)) (fun i : Fin (64 * 128) => f i)
  refine e.symm.trans ?_
  rw [Fintype.sum_prod_type]
  refine Finset.sum_congr rfl fun b _ => Finset.sum_congr rfl fun a _ => congrArg f (Fin.ext ?_)
  show a.val + 128 * b.val = 128 * b.val + a.val
  omega

/-- Block s of a function of (row, column) pairs: the sum over the block's 128 rows and all 8192 columns
    (zero past the last block). -/
def blockSum {A : Type*} [AddCommMonoid A] (f : Fin 8192 → Fin 8192 → A) (s : ℕ) : A :=
  if hs : s < 64 then ∑ a : Fin 128, ∑ k : Fin 8192, f (blockRow s hs a) k else 0

/-- The sum over all ordered pairs. -/
def pairSum {A : Type*} [AddCommMonoid A] (f : Fin 8192 → Fin 8192 → A) : A := ∑ i : Fin 8192, ∑ k : Fin 8192, f i k

/-- The 64 block sums add up to the sum over all pairs. -/
theorem sum_blockSum {A : Type*} [AddCommMonoid A] (f : Fin 8192 → Fin 8192 → A) :
    ∑ s ∈ Finset.range 64, blockSum f s = pairSum f := by
  unfold pairSum
  rw [sum_blocks (fun i => ∑ k : Fin 8192, f i k), Finset.sum_range]
  refine Finset.sum_congr rfl fun b _ => ?_
  unfold blockSum
  rw [dif_pos b.isLt]
  rfl

end Cert.GridSum

end
-- ==== Proof.KernelBlock.lean ====
/-
  One grid point's arithmetic at the ideal values, entry by entry.

  The point holds a block of 128 sample rows (x0 times, x1 event indicators as 0/1 numbers, x2 risks, each [128,1]) and the
  rows of all samples (x3, x4, x5, each [1,8192]). Entry (a, k) of its comparable-pair table is
  x1_a · (lt(x0_a, x3_k) + eq(x0_a, x3_k) · (1 - x4_k)); the risk difference is x5_k - x2_a; each output word gains the sum
  over all 128 × 8192 entries of the table, masked or not. When the block is rows 128·s … 128·s + 127 of the sample arrays
  (d, t, r), these sums are block s of the three pair terms.
-/
import proofs.«138423_j1692217114660_1_alg».proof.Proof.Gen.KernelIdeal.Skeleton
import proofs.«138423_j1692217114660_1_alg».proof.Proof.PairCount
import proofs.«138423_j1692217114660_1_alg».proof.Proof.LibGridSum

noncomputable section

open Idealize.ShloMosaic Idealize.ShloMosaic.ValueIdx

namespace Cert.KernelIdeal.Counts

open Cert.KernelIdeal Cert.KernelIdeal.Gen Cert.PairCount Cert.GridSum

/-! ## The tables, entry by entry -/

section Tables

variable (x0 x1 x2 : Vec Ideal S128x1 .f32) (x3 x4 x5 : Vec Ideal S1x8192 .f32)

/-- The comparable-pair table at (a, k). -/
theorem comparable_table_apply (a : Fin 128) (k : Fin 8192) :
    k0_pay7 (F := Ideal) x0 x1 x3 x4 (ix2 a k)
      = x1 (ix2 a (0 : Fin 1)) * (ofBit (Ideal.cmp .olt (x0 (ix2 a (0 : Fin 1))) (x3 (ix2 (0 : Fin 1) k)))
          + ofBit (Ideal.cmp .oeq (x0 (ix2 a (0 : Fin 1))) (x3 (ix2 (0 : Fin 1) k)))
            * (Ideal.ofBits .f32 0x3F800000#32 - x4 (ix2 (0 : Fin 1) k))) := by
  unfold k0_pay7
  simp only [mulf_apply, addf_apply, subf_apply, sitofp_apply, extui_apply, cmpf_apply, broadcast_apply, shapeCast_self,
    column_spread_apply, broadcastTo_1b_ab_apply]
  rfl

/-- The risk difference at (a, k). -/
theorem risk_difference_apply (a : Fin 128) (k : Fin 8192) :
    k0_pay8 (F := Ideal) x2 x5 (ix2 a k) = x5 (ix2 (0 : Fin 1) k) - x2 (ix2 a (0 : Fin 1)) := by
  unfold k0_pay8
  simp only [subf_apply, shapeCast_self, column_spread_apply, broadcastTo_1b_ab_apply]

/-- The mask "risk difference negative" at (a, k). -/
theorem negative_mask_apply (a : Fin 128) (k : Fin 8192) :
    k0_pay9 (F := Ideal) x2 x5 (ix2 a k)
      = ofBit (Ideal.cmp .olt (x5 (ix2 (0 : Fin 1) k) - x2 (ix2 a (0 : Fin 1))) (Ideal.ofBits .f32 0x00000000#32)) := by
  unfold k0_pay9
  simp only [sitofp_apply, extui_apply, cmpf_apply, broadcast_apply, risk_difference_apply]
  rfl

/-- The absolute risk difference at (a, k). -/
theorem abs_difference_apply (a : Fin 128) (k : Fin 8192) :
    k0_pay10 (F := Ideal) x2 x5 (ix2 a k)
      = max (x5 (ix2 (0 : Fin 1) k) - x2 (ix2 a (0 : Fin 1))) (-(x5 (ix2 (0 : Fin 1) k) - x2 (ix2 a (0 : Fin 1)))) := by
  unfold k0_pay10
  show FloatOps.absf (k0_pay8 (F := Ideal) x2 x5 (ix2 a k)) = _
  rw [risk_difference_apply]
  rfl

/-- The tie tolerance at every entry. -/
theorem tolerance_apply (a : Fin 128) (k : Fin 8192) :
    k0_pay11 (F := Ideal) (ix2 a k) = Ideal.ofBits .f32 0x322BCC77#32 := rfl

end Tables

/-! ## The three words: what was there plus the table's total -/

theorem concordant_word_apply (v31 v38 : FVec Ideal S128x8192 .f32) (v58 : Vec Ideal S1x1 .f32) (y : S1x1.Idx) :
    k0_pay1 (F := Ideal) v31 v38 v58 y = v58 y + ∑ a : Fin 128, ∑ k : Fin 8192, v31 (ix2 a k) * v38 (ix2 a k) := by
  unfold k0_pay1
  show shapeCast S1x1 v58 shapeCasts_S1x1_S1x1 y + _ = _
  rw [shapeCast_self]
  exact congrArg (v58 y + ·) (all_entries_sum_apply (mulf v31 v38) _ _ _ _ _ _ _ _ _ _ y)

theorem tied_word_apply (v31 v39 v40 : FVec Ideal S128x8192 .f32) (v62 : Vec Ideal S1x1 .f32) (y : S1x1.Idx) :
    k0_pay2 (F := Ideal) v31 v39 v40 v62 y
      = v62 y + ∑ a : Fin 128, ∑ k : Fin 8192, v31 (ix2 a k) * ofBit (Ideal.cmp .ole (v39 (ix2 a k)) (v40 (ix2 a k))) := by
  unfold k0_pay2
  show shapeCast S1x1 v62 shapeCasts_S1x1_S1x1 y + _ = _
  rw [shapeCast_self]
  exact congrArg (v62 y + ·) (all_entries_sum_apply
    (mulf v31 (sitofp .f32 (extui 32 (cmpf .ole v39 v40) natLt_1_32))) _ _ _ _ _ _ _ _ _ _ y)

theorem comparable_word_apply (v31 : FVec Ideal S128x8192 .f32) (v66 : Vec Ideal S1x1 .f32) (y : S1x1.Idx) :
    k0_pay3 (F := Ideal) v31 v66 y = v66 y + ∑ a : Fin 128, ∑ k : Fin 8192, v31 (ix2 a k) := by
  unfold k0_pay3
  show shapeCast S1x1 v66 shapeCasts_S1x1_S1x1 y + _ = _
  rw [shapeCast_self]
  exact congrArg (v66 y + ·) (all_entries_sum_apply v31 _ _ _ _ _ _ _ _ _ _ y)

/-! ## A point whose block is rows 128·s … 128·s + 127 of the samples -/

section Point

variable (d : Fin 8192 → BitVec 1) (t r : Fin 8192 → EReal) (s : ℕ) (hs : s < 64)
  (x0 x1 x2 : Vec Ideal S128x1 .f32) (x3 x4 x5 : Vec Ideal S1x8192 .f32)
  (e0 : ∀ a : Fin 128, x0 (ix2 a (0 : Fin 1)) = t (blockRow s hs a))
  (e1 : ∀ a : Fin 128, x1 (ix2 a (0 : Fin 1)) = numBit (d (blockRow s hs a)))
  (e2 : ∀ a : Fin 128, x2 (ix2 a (0 : Fin 1)) = r (blockRow s hs a))
  (e3 : ∀ k : Fin 8192, x3 (ix2 (0 : Fin 1) k) = t k)
  (e4 : ∀ k : Fin 8192, x4 (ix2 (0 : Fin 1) k) = numBit (d k))
  (e5 : ∀ k : Fin 8192, x5 (ix2 (0 : Fin 1) k) = r k)

include e0 e1 e2 e3 e4 e5

/-- The first word gains block s of the concordant term. -/
theorem concordant_point (xo : Vec Ideal S1x1 .f32) (y : S1x1.Idx) :
    k0_pay1 (F := Ideal) (k0_pay7 x0 x1 x3 x4) (k0_pay9 x2 x5) xo y = xo y + blockSum (concordantTerm d t r) s := by
  rw [concordant_word_apply]
  unfold blockSum
  rw [dif_pos hs]
  refine congrArg (xo y + ·) (Finset.sum_congr rfl fun a _ => Finset.sum_congr rfl fun k _ => ?_)
  rw [comparable_table_apply, negative_mask_apply, e0, e1, e2, e3, e4, e5]
  exact product_concordant d t r (blockRow s hs a) k

/-- The second word gains block s of the tied term. -/
theorem tied_point (xo : Vec Ideal S1x1 .f32) (y : S1x1.Idx) :
    k0_pay2 (F := Ideal) (k0_pay7 x0 x1 x3 x4) (k0_pay10 x2 x5) (k0_pay11 (F := Ideal)) xo y
      = xo y + blockSum (tiedTerm d t r) s := by
  rw [tied_word_apply]
  unfold blockSum
  rw [dif_pos hs]
  refine congrArg (xo y + ·) (Finset.sum_congr rfl fun a _ => Finset.sum_congr rfl fun k _ => ?_)
  rw [comparable_table_apply, abs_difference_apply, tolerance_apply, e0, e1, e2, e3, e4, e5]
  exact product_tied d t r (blockRow s hs a) k

omit e2 e5 in
/-- The third word gains block s of the comparable term. -/
theorem comparable_point (xo : Vec Ideal S1x1 .f32) (y : S1x1.Idx) :
    k0_pay3 (F := Ideal) (k0_pay7 x0 x1 x3 x4) xo y = xo y + blockSum (comparableTerm d t) s := by
  rw [comparable_word_apply]
  unfold blockSum
  rw [dif_pos hs]
  refine congrArg (xo y + ·) (Finset.sum_congr rfl fun a _ => Finset.sum_congr rfl fun k _ => ?_)
  rw [comparable_table_apply, e0, e1, e3, e4]
  exact product_comparable d t (blockRow s hs a) k

end Point

end Cert.KernelIdeal.Counts

end
-- ==== Proof.KernelCounts.lean ====
/-
  The kernel's result as the concordance index of the three pair counts.

  Before the region the program turns the three argument arrays into six: the times exp(event_time), the event
  indicators as 0/1 numbers and the risk estimates, each once as a column [8192,1] and once as a row [1,8192]. The region
  visits 64 points; point t holds rows 128·t … 128·t + 127 of the three columns and the three whole rows, and adds to three
  one-word output blocks the totals of its [128,8192] tables. By induction on the point the three words after point n are
  the sums of the first n + 1 blocks of the concordant, tied and comparable pair terms; the blocks are written back once,
  after the last point, when they hold the sums over all ordered pairs; and the scalar lines after the region form the index
  of those three counts.
-/
import proofs.«138423_j1692217114660_1_alg».proof.Proof.Gen.KernelIdeal.Frame
import proofs.«138423_j1692217114660_1_alg».proof.Proof.KernelPieces
import proofs.«138423_j1692217114660_1_alg».proof.Proof.KernelBlock
import Idealize.ShloMosaic.Lib.Pipeline.Value
import Idealize.ShloMosaic.Lib.StableHlo.Run
import Idealize.ShloMosaic.Lib.Tactic

noncomputable section

open Idealize.ShloMosaic Idealize.ShloMosaic.TcCoe Idealize.SL.Sem Idealize.ShloMosaic.ValueIdx
open Idealize.ShloMosaic.Pipeline (Dat)

namespace Cert.KernelIdeal.Counts

open Cert.KernelIdeal Cert.KernelIdeal.Gen Cert.PairCount Cert.GridSum

variable (m : (ℓ : Loc nD τ sig) → Buf (Elt Ideal) ℓ) (ρ : Dev nD → PrngReg)

/-! ## The six arrays the region finds -/

/-- Core c's three argument arrays as functions of their indices. -/
abbrev arg0 (c : Dev nD) : S8192.Idx → BitVec 1 := m ((c : Thread nD τ).loc main_arg0)
abbrev arg1 (c : Dev nD) : S8192x1.Idx → EReal := m ((c : Thread nD τ).loc main_arg1)
abbrev arg2 (c : Dev nD) : S8192x1.Idx → EReal := m ((c : Thread nD τ).loc main_arg2)

/-- The times, the event indicators as 0/1 numbers and the risks, as vectors [8192]. -/
abbrev timesVec (c : Dev nD) : FVec Ideal S8192 .f32 :=
  Host.exp (F := Ideal) (shapeCast S8192 (arg1 m c) shapeCasts_S8192x1_S8192 : FVec Ideal S8192 .f32)
abbrev eventsVec (c : Dev nD) : FVec Ideal S8192 .f32 := uitofp (F := Ideal) .f32 (arg0 m c : IVec S8192 1)
abbrev risksVec (c : Dev nD) : FVec Ideal S8192 .f32 := shapeCast S8192 (arg2 m c) shapeCasts_S8192x1_S8192

theorem times_column (c : Dev nD) :
    (V m c main_v4 : S8192x1.Idx → EReal) = shapeCast S8192x1 (timesVec m c) shapeCasts_S8192_S8192x1 := by
  show StableHlo.after (hostOps0 (F := Ideal)) (fun b => m (c, b)) (Proc.devRef .tc main_v4) = _
  after_results; rfl

theorem events_column (c : Dev nD) :
    (V m c main_v5 : S8192x1.Idx → EReal) = shapeCast S8192x1 (eventsVec m c) shapeCasts_S8192_S8192x1 := by
  show StableHlo.after (hostOps0 (F := Ideal)) (fun b => m (c, b)) (Proc.devRef .tc main_v5) = _
  after_results; rfl

theorem risks_column (c : Dev nD) :
    (V m c main_v6 : S8192x1.Idx → EReal) = shapeCast S8192x1 (risksVec m c) shapeCasts_S8192_S8192x1 := by
  show StableHlo.after (hostOps0 (F := Ideal)) (fun b => m (c, b)) (Proc.devRef .tc main_v6) = _
  after_results; rfl

theorem times_row (c : Dev nD) :
    (V m c main_v7 : S1x8192.Idx → EReal) = shapeCast S1x8192 (timesVec m c) shapeCasts_S8192_S1x8192 := by
  show StableHlo.after (hostOps0 (F := Ideal)) (fun b => m (c, b)) (Proc.devRef .tc main_v7) = _
  after_results; rfl

theorem events_row (c : Dev nD) :
    (V m c main_v8 : S1x8192.Idx → EReal) = shapeCast S1x8192 (eventsVec m c) shapeCasts_S8192_S1x8192 := by
  show StableHlo.after (hostOps0 (F := Ideal)) (fun b => m (c, b)) (Proc.devRef .tc main_v8) = _
  after_results; rfl

theorem risks_row (c : Dev nD) :
    (V m c main_v9 : S1x8192.Idx → EReal) = shapeCast S1x8192 (risksVec m c) shapeCasts_S8192_S1x8192 := by
  show StableHlo.after (hostOps0 (F := Ideal)) (fun b => m (c, b)) (Proc.devRef .tc main_v9) = _
  after_results; rfl

/-- The three vectors at a sample. -/
theorem timesVec_apply (c : Dev nD) (i : Fin 8192) : timesVec m c (ix1 i) = time (arg1 m c) i := by
  show Ideal.exp (shapeCast S8192 (arg1 m c) shapeCasts_S8192x1_S8192 (ix1 i)) = _
  rw [column_as_vector_apply]
  rfl

theorem eventsVec_apply (c : Dev nD) (i : Fin 8192) : eventsVec m c (ix1 i) = numBit (evt (arg0 m c) i) := rfl

theorem risksVec_apply (c : Dev nD) (i : Fin 8192) : risksVec m c (ix1 i) = risk (arg2 m c) i := by
  show shapeCast S8192 (arg2 m c) shapeCasts_S8192x1_S8192 (ix1 i) = _
  rw [column_as_vector_apply]
  rfl

/-- The six arrays at a sample. -/
theorem times_column_apply (c : Dev nD) (i : Fin 8192) :
    V m c main_v4 (ix2 i (0 : Fin 1)) = time (arg1 m c) i :=
  (congrFun (times_column m c) (ix2 i (0 : Fin 1))).trans ((vector_as_column_apply _ _ i 0).trans (timesVec_apply m c i))

theorem events_column_apply (c : Dev nD) (i : Fin 8192) :
    V m c main_v5 (ix2 i (0 : Fin 1)) = numBit (evt (arg0 m c) i) :=
  (congrFun (events_column m c) (ix2 i (0 : Fin 1))).trans ((vector_as_column_apply _ _ i 0).trans (eventsVec_apply m c i))

theorem risks_column_apply (c : Dev nD) (i : Fin 8192) :
    V m c main_v6 (ix2 i (0 : Fin 1)) = risk (arg2 m c) i :=
  (congrFun (risks_column m c) (ix2 i (0 : Fin 1))).trans ((vector_as_column_apply _ _ i 0).trans (risksVec_apply m c i))

theorem times_row_apply (c : Dev nD) (k : Fin 8192) :
    V m c main_v7 (ix2 (0 : Fin 1) k) = time (arg1 m c) k :=
  (congrFun (times_row m c) (ix2 (0 : Fin 1) k)).trans ((shapeCast_a_1a_apply _ _ 0 k).trans (timesVec_apply m c k))

theorem events_row_apply (c : Dev nD) (k : Fin 8192) :
    V m c main_v8 (ix2 (0 : Fin 1) k) = numBit (evt (arg0 m c) k) :=
  (congrFun (events_row m c) (ix2 (0 : Fin 1) k)).trans ((shapeCast_a_1a_apply _ _ 0 k).trans (eventsVec_apply m c k))

theorem risks_row_apply (c : Dev nD) (k : Fin 8192) :
    V m c main_v9 (ix2 (0 : Fin 1) k) = risk (arg2 m c) k :=
  (congrFun (risks_row m c) (ix2 (0 : Fin 1) k)).trans ((shapeCast_a_1a_apply _ _ 0 k).trans (risksVec_apply m c k))

/-! ## The blocks a point holds -/

/-- A column window's block at point t starts at row t·128; a row window's block is the whole row. -/
theorem column_index : ∀ t : Fin cfg0.N, (win0_0.index t 0 = t.val ∧ win0_0.index t 1 = 0)
    ∧ (win0_1.index t 0 = t.val ∧ win0_1.index t 1 = 0) ∧ (win0_2.index t 0 = t.val ∧ win0_2.index t 1 = 0) :=
  (by decide +kernel : ∀ t : Fin grid0.N, (win0_0.index t 0 = t.val ∧ win0_0.index t 1 = 0)
    ∧ (win0_1.index t 0 = t.val ∧ win0_1.index t 1 = 0) ∧ (win0_2.index t 0 = t.val ∧ win0_2.index t 1 = 0))

theorem row_index : ∀ t : Fin cfg0.N, (win0_3.index t 0 = 0 ∧ win0_3.index t 1 = 0)
    ∧ (win0_4.index t 0 = 0 ∧ win0_4.index t 1 = 0) ∧ (win0_5.index t 0 = 0 ∧ win0_5.index t 1 = 0) :=
  (by decide +kernel : ∀ t : Fin grid0.N, (win0_3.index t 0 = 0 ∧ win0_3.index t 1 = 0)
    ∧ (win0_4.index t 0 = 0 ∧ win0_4.index t 1 = 0) ∧ (win0_5.index t 0 = 0 ∧ win0_5.index t 1 = 0))

theorem point_lt (t : Fin cfg0.N) : t.val < 64 := lt_of_lt_of_eq t.isLt (show cfg0.N = 64 from N_0)

theorem times_block_apply (c : Dev nD) (t : Fin cfg0.N) (a : Fin 128) :
    (iblk m c 0 t : Vec Ideal S128x1 .f32) (ix2 a (0 : Fin 1)) = time (arg1 m c) (blockRow t.val (point_lt t) a) := by
  refine Eq.trans ?_ (times_column_apply m c (blockRow t.val (point_lt t) a))
  unfold iblk
  rw [View.read_apply]
  show V m c main_v4 _ = V m c main_v4 _
  refine congrArg (V m c main_v4) (funext fun ax => Fin.ext ?_)
  match ax with
  | ⟨0, _⟩ => show win0_0.index t 0 * 128 + 1 * a.val = 128 * t.val + a.val; rw [(column_index t).1.1]; omega
  | ⟨1, _⟩ => show win0_0.index t 1 * 1 + 1 * 0 = 0; rw [(column_index t).1.2]

theorem events_block_apply (c : Dev nD) (t : Fin cfg0.N) (a : Fin 128) :
    (iblk m c 1 t : Vec Ideal S128x1 .f32) (ix2 a (0 : Fin 1)) = numBit (evt (arg0 m c) (blockRow t.val (point_lt t) a)) := by
  refine Eq.trans ?_ (events_column_apply m c (blockRow t.val (point_lt t) a))
  unfold iblk
  rw [View.read_apply]
  show V m c main_v5 _ = V m c main_v5 _
  refine congrArg (V m c main_v5) (funext fun ax => Fin.ext ?_)
  match ax with
  | ⟨0, _⟩ => show win0_1.index t 0 * 128 + 1 * a.val = 128 * t.val + a.val; rw [(column_index t).2.1.1]; omega
  | ⟨1, _⟩ => show win0_1.index t 1 * 1 + 1 * 0 = 0; rw [(column_index t).2.1.2]

theorem risks_block_apply (c : Dev nD) (t : Fin cfg0.N) (a : Fin 128) :
    (iblk m c 2 t : Vec Ideal S128x1 .f32) (ix2 a (0 : Fin 1)) = risk (arg2 m c) (blockRow t.val (point_lt t) a) := by
  refine Eq.trans ?_ (risks_column_apply m c (blockRow t.val (point_lt t) a))
  unfold iblk
  rw [View.read_apply]
  show V m c main_v6 _ = V m c main_v6 _
  refine congrArg (V m c main_v6) (funext fun ax => Fin.ext ?_)
  match ax with
  | ⟨0, _⟩ => show win0_2.index t 0 * 128 + 1 * a.val = 128 * t.val + a.val; rw [(column_index t).2.2.1]; omega
  | ⟨1, _⟩ => show win0_2.index t 1 * 1 + 1 * 0 = 0; rw [(column_index t).2.2.2]

theorem times_row_block_apply (c : Dev nD) (t : Fin cfg0.N) (k : Fin 8192) :
    (iblk m c 3 t : Vec Ideal S1x8192 .f32) (ix2 (0 : Fin 1) k) = time (arg1 m c) k := by
  refine Eq.trans ?_ (times_row_apply m c k)
  unfold iblk
  rw [View.read_apply]
  show V m c main_v7 _ = V m c main_v7 _
  refine congrArg (V m c main_v7) (funext fun ax => Fin.ext ?_)
  match ax with
  | ⟨0, _⟩ => show win0_3.index t 0 * 1 + 1 * 0 = 0; rw [(row_index t).1.1]
  | ⟨1, _⟩ => show win0_3.index t 1 * 8192 + 1 * k.val = k.val; rw [(row_index t).1.2]; omega

theorem events_row_block_apply (c : Dev nD) (t : Fin cfg0.N) (k : Fin 8192) :
    (iblk m c 4 t : Vec Ideal S1x8192 .f32) (ix2 (0 : Fin 1) k) = numBit (evt (arg0 m c) k) := by
  refine Eq.trans ?_ (events_row_apply m c k)
  unfold iblk
  rw [View.read_apply]
  show V m c main_v8 _ = V m c main_v8 _
  refine congrArg (V m c main_v8) (funext fun ax => Fin.ext ?_)
  match ax with
  | ⟨0, _⟩ => show win0_4.index t 0 * 1 + 1 * 0 = 0; rw [(row_index t).2.1.1]
  | ⟨1, _⟩ => show win0_4.index t 1 * 8192 + 1 * k.val = k.val; rw [(row_index t).2.1.2]; omega

theorem risks_row_block_apply (c : Dev nD) (t : Fin cfg0.N) (k : Fin 8192) :
    (iblk m c 5 t : Vec Ideal S1x8192 .f32) (ix2 (0 : Fin 1) k) = risk (arg2 m c) k := by
  refine Eq.trans ?_ (risks_row_apply m c k)
  unfold iblk
  rw [View.read_apply]
  show V m c main_v9 _ = V m c main_v9 _
  refine congrArg (V m c main_v9) (funext fun ax => Fin.ext ?_)
  match ax with
  | ⟨0, _⟩ => show win0_5.index t 0 * 1 + 1 * 0 = 0; rw [(row_index t).2.2.1]
  | ⟨1, _⟩ => show win0_5.index t 1 * 8192 + 1 * k.val = k.val; rw [(row_index t).2.2.2]; omega

/-! ## The three words, point after point -/

/-- After point n the three words hold the first n + 1 block sums of the concordant, tied and comparable terms. -/
def running (c : Dev nD) (n : ℕ) : Vec Ideal S1x1 .f32 × Vec Ideal S1x1 .f32 × Vec Ideal S1x1 .f32 :=
  (fun _ => ∑ s ∈ Finset.range (n + 1), blockSum (concordantTerm (evt (arg0 m c)) (time (arg1 m c)) (risk (arg2 m c))) s,
   fun _ => ∑ s ∈ Finset.range (n + 1), blockSum (tiedTerm (evt (arg0 m c)) (time (arg1 m c)) (risk (arg2 m c))) s,
   fun _ => ∑ s ∈ Finset.range (n + 1), blockSum (comparableTerm (evt (arg0 m c)) (time (arg1 m c))) s)

theorem zero_word (y : S1x1.Idx) : (k0_pay4 (F := Ideal) y = 0) ∧ (k0_pay5 (F := Ideal) y = 0) ∧ (k0_pay6 (F := Ideal) y = 0) :=
  ⟨Ideal.ofBits_zero_f32, Ideal.ofBits_zero_f32, Ideal.ofBits_zero_f32⟩

/-- By induction on the point: the first point stores zero and adds its block, every later one adds its block to what
    the point before left. -/
theorem outsAt_eq (c : Dev nD) : ∀ (n : ℕ) (h : n < cfg0.N), outsAt0 m c n h = running m c n
  | 0, h => by
    rw [outsAt0_A m c ⟨0, h⟩ rfl, out_A_6, out_A_7, out_A_8]
    unfold running
    refine Prod.ext (funext fun y => ?_) (Prod.ext (funext fun y => ?_) (funext fun y => ?_))
    · refine (concordant_point (evt (arg0 m c)) (time (arg1 m c)) (risk (arg2 m c)) 0 (point_lt ⟨0, h⟩)
        (iblk m c 0 ⟨0, h⟩ : Vec Ideal S128x1 .f32) (iblk m c 1 ⟨0, h⟩ : Vec Ideal S128x1 .f32) (iblk m c 2 ⟨0, h⟩ : Vec Ideal S128x1 .f32)
        (iblk m c 3 ⟨0, h⟩ : Vec Ideal S1x8192 .f32) (iblk m c 4 ⟨0, h⟩ : Vec Ideal S1x8192 .f32) (iblk m c 5 ⟨0, h⟩ : Vec Ideal S1x8192 .f32)
        (times_block_apply m c ⟨0, h⟩) (events_block_apply m c ⟨0, h⟩) (risks_block_apply m c ⟨0, h⟩)
        (times_row_block_apply m c ⟨0, h⟩) (events_row_block_apply m c ⟨0, h⟩) (risks_row_block_apply m c ⟨0, h⟩) _ y).trans ?_
      rw [(zero_word y).1, zero_add]
      exact (Finset.sum_range_one _).symm
    · refine (tied_point (evt (arg0 m c)) (time (arg1 m c)) (risk (arg2 m c)) 0 (point_lt ⟨0, h⟩)
        (iblk m c 0 ⟨0, h⟩ : Vec Ideal S128x1 .f32) (iblk m c 1 ⟨0, h⟩ : Vec Ideal S128x1 .f32) (iblk m c 2 ⟨0, h⟩ : Vec Ideal S128x1 .f32)
        (iblk m c 3 ⟨0, h⟩ : Vec Ideal S1x8192 .f32) (iblk m c 4 ⟨0, h⟩ : Vec Ideal S1x8192 .f32) (iblk m c 5 ⟨0, h⟩ : Vec Ideal S1x8192 .f32)
        (times_block_apply m c ⟨0, h⟩) (events_block_apply m c ⟨0, h⟩) (risks_block_apply m c ⟨0, h⟩)
        (times_row_block_apply m c ⟨0, h⟩) (events_row_block_apply m c ⟨0, h⟩) (risks_row_block_apply m c ⟨0, h⟩) _ y).trans ?_
      rw [(zero_word y).2.1, zero_add]
      exact (Finset.sum_range_one _).symm
    · refine (comparable_point (evt (arg0 m c)) (time (arg1 m c)) 0 (point_lt ⟨0, h⟩)
        (iblk m c 0 ⟨0, h⟩ : Vec Ideal S128x1 .f32) (iblk m c 1 ⟨0, h⟩ : Vec Ideal S128x1 .f32)
        (iblk m c 3 ⟨0, h⟩ : Vec Ideal S1x8192 .f32) (iblk m c 4 ⟨0, h⟩ : Vec Ideal S1x8192 .f32)
        (times_block_apply m c ⟨0, h⟩) (events_block_apply m c ⟨0, h⟩)
        (times_row_block_apply m c ⟨0, h⟩) (events_row_block_apply m c ⟨0, h⟩) _ y).trans ?_
      rw [(zero_word y).2.2, zero_add]
      exact (Finset.sum_range_one _).symm
  | n + 1, h => by
    have hN := point_lt ⟨n + 1, h⟩
    have hB : ¬(⟨n + 1, h⟩ : Fin cfg0.N).val % 64 = 0 := by dsimp only at hN ⊢; omega
    rw [outsAt0_B m c ⟨n + 1, h⟩ hB, out_B_6, out_B_7, out_B_8]
    have ih := outsAt_eq c n (Nat.lt_of_succ_lt h)
    unfold running at ih ⊢
    refine Prod.ext (funext fun y => ?_) (Prod.ext (funext fun y => ?_) (funext fun y => ?_))
    · refine (concordant_point (evt (arg0 m c)) (time (arg1 m c)) (risk (arg2 m c)) (n + 1) hN
        (iblk m c 0 ⟨n + 1, h⟩ : Vec Ideal S128x1 .f32) (iblk m c 1 ⟨n + 1, h⟩ : Vec Ideal S128x1 .f32) (iblk m c 2 ⟨n + 1, h⟩ : Vec Ideal S128x1 .f32)
        (iblk m c 3 ⟨n + 1, h⟩ : Vec Ideal S1x8192 .f32) (iblk m c 4 ⟨n + 1, h⟩ : Vec Ideal S1x8192 .f32) (iblk m c 5 ⟨n + 1, h⟩ : Vec Ideal S1x8192 .f32)
        (times_block_apply m c ⟨n + 1, h⟩) (events_block_apply m c ⟨n + 1, h⟩) (risks_block_apply m c ⟨n + 1, h⟩)
        (times_row_block_apply m c ⟨n + 1, h⟩) (events_row_block_apply m c ⟨n + 1, h⟩) (risks_row_block_apply m c ⟨n + 1, h⟩) _ y).trans ?_
      show (outsAt0 m c n _).1 y + _ = _
      rw [ih]
      exact (Finset.sum_range_succ _ (n + 1)).symm
    · refine (tied_point (evt (arg0 m c)) (time (arg1 m c)) (risk (arg2 m c)) (n + 1) hN
        (iblk m c 0 ⟨n + 1, h⟩ : Vec Ideal S128x1 .f32) (iblk m c 1 ⟨n + 1, h⟩ : Vec Ideal S128x1 .f32) (iblk m c 2 ⟨n + 1, h⟩ : Vec Ideal S128x1 .f32)
        (iblk m c 3 ⟨n + 1, h⟩ : Vec Ideal S1x8192 .f32) (iblk m c 4 ⟨n + 1, h⟩ : Vec Ideal S1x8192 .f32) (iblk m c 5 ⟨n + 1, h⟩ : Vec Ideal S1x8192 .f32)
        (times_block_apply m c ⟨n + 1, h⟩) (events_block_apply m c ⟨n + 1, h⟩) (risks_block_apply m c ⟨n + 1, h⟩)
        (times_row_block_apply m c ⟨n + 1, h⟩) (events_row_block_apply m c ⟨n + 1, h⟩) (risks_row_block_apply m c ⟨n + 1, h⟩) _ y).trans ?_
      show (outsAt0 m c n _).2.1 y + _ = _
      rw [ih]
      exact (Finset.sum_range_succ _ (n + 1)).symm
    · refine (comparable_point (evt (arg0 m c)) (time (arg1 m c)) (n + 1) hN
        (iblk m c 0 ⟨n + 1, h⟩ : Vec Ideal S128x1 .f32) (iblk m c 1 ⟨n + 1, h⟩ : Vec Ideal S128x1 .f32)
        (iblk m c 3 ⟨n + 1, h⟩ : Vec Ideal S1x8192 .f32) (iblk m c 4 ⟨n + 1, h⟩ : Vec Ideal S1x8192 .f32)
        (times_block_apply m c ⟨n + 1, h⟩) (events_block_apply m c ⟨n + 1, h⟩)
        (times_row_block_apply m c ⟨n + 1, h⟩) (events_row_block_apply m c ⟨n + 1, h⟩) _ y).trans ?_
      show (outsAt0 m c n _).2.2 y + _ = _
      rw [ih]
      exact (Finset.sum_range_succ _ (n + 1)).symm

/-! ## The three result arrays -/

/-- The three counts over all ordered pairs of core c's samples. -/
def concordantCount (c : Dev nD) : EReal := pairSum (concordantTerm (evt (arg0 m c)) (time (arg1 m c)) (risk (arg2 m c)))
def tiedCount (c : Dev nD) : EReal := pairSum (tiedTerm (evt (arg0 m c)) (time (arg1 m c)) (risk (arg2 m c)))
def comparableCount (c : Dev nD) : EReal := pairSum (comparableTerm (evt (arg0 m c)) (time (arg1 m c)))

theorem last_point : (63 : ℕ) < cfg0.N := by rw [show cfg0.N = 64 from N_0]; decide

/-- Each output window's one block sits at (0, 0) at every point. -/
theorem out_index : ∀ t : Fin cfg0.N, (win0_6.index t 0 = 0 ∧ win0_6.index t 1 = 0)
    ∧ (win0_7.index t 0 = 0 ∧ win0_7.index t 1 = 0) ∧ (win0_8.index t 0 = 0 ∧ win0_8.index t 1 = 0) :=
  (by decide +kernel : ∀ t : Fin grid0.N, (win0_6.index t 0 = 0 ∧ win0_6.index t 1 = 0)
    ∧ (win0_7.index t 0 = 0 ∧ win0_7.index t 1 = 0) ∧ (win0_8.index t 0 = 0 ∧ win0_8.index t 1 = 0))

/-- After the last point the three words hold the three counts. -/
theorem running_last (c : Dev nD) :
    running m c 63 = (fun _ => concordantCount m c, fun _ => tiedCount m c, fun _ => comparableCount m c) :=
  Prod.ext (funext fun _ => sum_blockSum _) (Prod.ext (funext fun _ => sum_blockSum _) (funext fun _ => sum_blockSum _))

theorem concordant_flushed (c : Dev nD) (t : Fin cfg0.N) (hf : (cfg0.win 6).flush t = true) :
    (dats m 0 c).flushed 6 t = ((cfg0.win 6).blk t).view.read (Elt Ideal) (fun _ => concordantCount m c : S1x1.Idx → EReal) := by
  have h63 : t.val = 63 := by have := (flush0_6 t).mp hf; have := point_lt t; omega
  show (cfg0.win 6).cut (grid0.coords t) ((dats m 0 c).after 6 t) = _
  rw [after0_6, outsAt_eq]
  have hr : running m c t.val = running m c 63 := by rw [h63]
  rw [hr, running_last]
  have hz' : (fun a => win0_6.index t a * main_v10_0.ty.shape.size a) = fun _ => 0 :=
    funext fun a => by
      match a with
      | ⟨0, _⟩ => show win0_6.index t 0 * 1 = 0; rw [(out_index t).1.1]
      | ⟨1, _⟩ => show win0_6.index t 1 * 1 = 0; rw [(out_index t).1.2]
  exact (Memref.read_access_unit_zero (Elt Ideal) main_v10_0 hz' (fun a => by rw [congrFun hz' a]; simp)
    (fun _ => concordantCount m c : S1x1.Idx → EReal)).symm

theorem concordant_array (c : Dev nD) : (dats m 0 c).arrAt 6 cfg0.N = (fun _ => concordantCount m c : S1x1.Idx → EReal) :=
  (dats m 0 c).arrAt_eq_of_cover 6 _ (concordant_flushed m c) fun i =>
    ⟨⟨63, last_point⟩, (flush0_6 _).mpr rfl, by
      show i ∈ ((View.whole main_v10_0).slice (win0_6.rect ⟨63, last_point⟩)).set
      rw [View.set_slice_whole, Rect.mem_set_unit]
      intro a
      have h0 : (i 0 : Nat) < 1 := (i 0).isLt
      have h1 : (i 1 : Nat) < 1 := (i 1).isLt
      match a with
      | ⟨0, _⟩ =>
        show win0_6.index ⟨63, last_point⟩ 0 * win0_6.size 0 ≤ (i 0 : Nat)
          ∧ (i 0 : Nat) < win0_6.index ⟨63, last_point⟩ 0 * win0_6.size 0 + win0_6.xsize (grid0.coords ⟨63, last_point⟩) 0
        rw [show win0_6.index ⟨63, last_point⟩ 0 * win0_6.size 0 = 0 from by decide +kernel,
          show win0_6.xsize (grid0.coords ⟨63, last_point⟩) 0 = 1 from by decide +kernel]
        omega
      | ⟨1, _⟩ =>
        show win0_6.index ⟨63, last_point⟩ 1 * win0_6.size 1 ≤ (i 1 : Nat)
          ∧ (i 1 : Nat) < win0_6.index ⟨63, last_point⟩ 1 * win0_6.size 1 + win0_6.xsize (grid0.coords ⟨63, last_point⟩) 1
        rw [show win0_6.index ⟨63, last_point⟩ 1 * win0_6.size 1 = 0 from by decide +kernel,
          show win0_6.xsize (grid0.coords ⟨63, last_point⟩) 1 = 1 from by decide +kernel]
        omega⟩

theorem tied_flushed (c : Dev nD) (t : Fin cfg0.N) (hf : (cfg0.win 7).flush t = true) :
    (dats m 0 c).flushed 7 t = ((cfg0.win 7).blk t).view.read (Elt Ideal) (fun _ => tiedCount m c : S1x1.Idx → EReal) := by
  have h63 : t.val = 63 := by have := (flush0_7 t).mp hf; have := point_lt t; omega
  show (cfg0.win 7).cut (grid0.coords t) ((dats m 0 c).after 7 t) = _
  rw [after0_7, outsAt_eq]
  have hr : running m c t.val = running m c 63 := by rw [h63]
  rw [hr, running_last]
  have hz' : (fun a => win0_7.index t a * main_v10_1.ty.shape.size a) = fun _ => 0 :=
    funext fun a => by
      match a with
      | ⟨0, _⟩ => show win0_7.index t 0 * 1 = 0; rw [(out_index t).2.1.1]
      | ⟨1, _⟩ => show win0_7.index t 1 * 1 = 0; rw [(out_index t).2.1.2]
  exact (Memref.read_access_unit_zero (Elt Ideal) main_v10_1 hz' (fun a => by rw [congrFun hz' a]; simp)
    (fun _ => tiedCount m c : S1x1.Idx → EReal)).symm

theorem tied_array (c : Dev nD) : (dats m 0 c).arrAt 7 cfg0.N = (fun _ => tiedCount m c : S1x1.Idx → EReal) :=
  (dats m 0 c).arrAt_eq_of_cover 7 _ (tied_flushed m c) fun i =>
    ⟨⟨63, last_point⟩, (flush0_7 _).mpr rfl, by
      show i ∈ ((View.whole main_v10_1).slice (win0_7.rect ⟨63, last_point⟩)).set
      rw [View.set_slice_whole, Rect.mem_set_unit]
      intro a
      have h0 : (i 0 : Nat) < 1 := (i 0).isLt
      have h1 : (i 1 : Nat) < 1 := (i 1).isLt
      match a with
      | ⟨0, _⟩ =>
        show win0_7.index ⟨63, last_point⟩ 0 * win0_7.size 0 ≤ (i 0 : Nat)
          ∧ (i 0 : Nat) < win0_7.index ⟨63, last_point⟩ 0 * win0_7.size 0 + win0_7.xsize (grid0.coords ⟨63, last_point⟩) 0
        rw [show win0_7.index ⟨63, last_point⟩ 0 * win0_7.size 0 = 0 from by decide +kernel,
          show win0_7.xsize (grid0.coords ⟨63, last_point⟩) 0 = 1 from by decide +kernel]
        omega
      | ⟨1, _⟩ =>
        show win0_7.index ⟨63, last_point⟩ 1 * win0_7.size 1 ≤ (i 1 : Nat)
          ∧ (i 1 : Nat) < win0_7.index ⟨63, last_point⟩ 1 * win0_7.size 1 + win0_7.xsize (grid0.coords ⟨63, last_point⟩) 1
        rw [show win0_7.index ⟨63, last_point⟩ 1 * win0_7.size 1 = 0 from by decide +kernel,
          show win0_7.xsize (grid0.coords ⟨63, last_point⟩) 1 = 1 from by decide +kernel]
        omega⟩

theorem comparable_flushed (c : Dev nD) (t : Fin cfg0.N) (hf : (cfg0.win 8).flush t = true) :
    (dats m 0 c).flushed 8 t = ((cfg0.win 8).blk t).view.read (Elt Ideal) (fun _ => comparableCount m c : S1x1.Idx → EReal) := by
  have h63 : t.val = 63 := by have := (flush0_8 t).mp hf; have := point_lt t; omega
  show (cfg0.win 8).cut (grid0.coords t) ((dats m 0 c).after 8 t) = _
  rw [after0_8, outsAt_eq]
  have hr : running m c t.val = running m c 63 := by rw [h63]
  rw [hr, running_last]
  have hz' : (fun a => win0_8.index t a * main_v10_2.ty.shape.size a) = fun _ => 0 :=
    funext fun a => by
      match a with
      | ⟨0, _⟩ => show win0_8.index t 0 * 1 = 0; rw [(out_index t).2.2.1]
      | ⟨1, _⟩ => show win0_8.index t 1 * 1 = 0; rw [(out_index t).2.2.2]
  exact (Memref.read_access_unit_zero (Elt Ideal) main_v10_2 hz' (fun a => by rw [congrFun hz' a]; simp)
    (fun _ => comparableCount m c : S1x1.Idx → EReal)).symm

theorem comparable_array (c : Dev nD) : (dats m 0 c).arrAt 8 cfg0.N = (fun _ => comparableCount m c : S1x1.Idx → EReal) :=
  (dats m 0 c).arrAt_eq_of_cover 8 _ (comparable_flushed m c) fun i =>
    ⟨⟨63, last_point⟩, (flush0_8 _).mpr rfl, by
      show i ∈ ((View.whole main_v10_2).slice (win0_8.rect ⟨63, last_point⟩)).set
      rw [View.set_slice_whole, Rect.mem_set_unit]
      intro a
      have h0 : (i 0 : Nat) < 1 := (i 0).isLt
      have h1 : (i 1 : Nat) < 1 := (i 1).isLt
      match a with
      | ⟨0, _⟩ =>
        show win0_8.index ⟨63, last_point⟩ 0 * win0_8.size 0 ≤ (i 0 : Nat)
          ∧ (i 0 : Nat) < win0_8.index ⟨63, last_point⟩ 0 * win0_8.size 0 + win0_8.xsize (grid0.coords ⟨63, last_point⟩) 0
        rw [show win0_8.index ⟨63, last_point⟩ 0 * win0_8.size 0 = 0 from by decide +kernel,
          show win0_8.xsize (grid0.coords ⟨63, last_point⟩) 0 = 1 from by decide +kernel]
        omega
      | ⟨1, _⟩ =>
        show win0_8.index ⟨63, last_point⟩ 1 * win0_8.size 1 ≤ (i 1 : Nat)
          ∧ (i 1 : Nat) < win0_8.index ⟨63, last_point⟩ 1 * win0_8.size 1 + win0_8.xsize (grid0.coords ⟨63, last_point⟩) 1
        rw [show win0_8.index ⟨63, last_point⟩ 1 * win0_8.size 1 = 0 from by decide +kernel,
          show win0_8.xsize (grid0.coords ⟨63, last_point⟩) 1 = 1 from by decide +kernel]
        omega⟩

/-! ## The lines after the region -/

/-- The scalar lines after the region as one function of the three one-word arrays: each array's word read as a scalar,
    then 1 - (discordant + 0.5·tied) / (discordant + concordant + tied + 1e-7) with discordant = total - concordant - tied. -/
def indexOfWords (w6 w7 w8 : FVec Ideal S1x1 .f32) : FVec Ideal S_ .f32 :=
  subf (constant (F := Ideal) S_ .f32 0x3F800000#32)
    (Host.divf (F := Ideal)
      (addf (subf (subf (shapeCast S_ w8 shapeCasts_S1x1_S_) (shapeCast S_ w6 shapeCasts_S1x1_S_)) (shapeCast S_ w7 shapeCasts_S1x1_S_))
        (mulf (constant (F := Ideal) S_ .f32 0x3F000000#32) (shapeCast S_ w7 shapeCasts_S1x1_S_)))
      (addf (addf (addf (subf (subf (shapeCast S_ w8 shapeCasts_S1x1_S_) (shapeCast S_ w6 shapeCasts_S1x1_S_)) (shapeCast S_ w7 shapeCasts_S1x1_S_))
            (shapeCast S_ w6 shapeCasts_S1x1_S_)) (shapeCast S_ w7 shapeCasts_S1x1_S_))
        (constant (F := Ideal) S_ .f32 0x33D6BF95#32)))

/-- On three constant words it is the index of the three numbers. -/
theorem indexOfWords_const (n6 n7 n8 : EReal) :
    indexOfWords (fun _ => n6) (fun _ => n7) (fun _ => n8) = fun _ => index n6 n7 n8 :=
  funext fun _ => rfl

set_option maxHeartbeats 1000000 in
/-- The scalar lines after the region turn the three one-word arrays into the index of the three counts. -/
theorem result_eq (c : Dev nD) :
    Pipeline.afterTail₀ cfgs (dats m) 0 (V0 m) [hostOps1] c main_v22
      = (fun _ => index (concordantCount m c) (tiedCount m c) (comparableCount m c) : S_.Idx → EReal) := by
  have h6 : Pipeline.withArrays (cfgs 0).spec c (V0 m c) (fun w => (dats m 0 c).arrAt w (cfgs 0).N) (Proc.devRef .tc main_v10_0) = (fun _ => concordantCount m c : S1x1.Idx → EReal) :=
    (Pipeline.withArrays_arr spec0 launch0.win.arr_inj c (V0 m c) (fun w => (dats m 0 c).arrAt w cfg0.N) 6).trans (concordant_array m c)
  have h7 : Pipeline.withArrays (cfgs 0).spec c (V0 m c) (fun w => (dats m 0 c).arrAt w (cfgs 0).N) (Proc.devRef .tc main_v10_1) = (fun _ => tiedCount m c : S1x1.Idx → EReal) :=
    (Pipeline.withArrays_arr spec0 launch0.win.arr_inj c (V0 m c) (fun w => (dats m 0 c).arrAt w cfg0.N) 7).trans (tied_array m c)
  have h8 : Pipeline.withArrays (cfgs 0).spec c (V0 m c) (fun w => (dats m 0 c).arrAt w (cfgs 0).N) (Proc.devRef .tc main_v10_2) = (fun _ => comparableCount m c : S1x1.Idx → EReal) :=
    (Pipeline.withArrays_arr spec0 launch0.win.arr_inj c (V0 m c) (fun w => (dats m 0 c).arrAt w cfg0.N) 8).trans (comparable_array m c)
  unfold Pipeline.afterTail₀
  generalize Pipeline.withArrays (cfgs 0).spec c (V0 m c) (fun w => (dats m 0 c).arrAt w (cfgs 0).N) = W at h6 h7 h8 ⊢
  show StableHlo.after (hostOps1 (F := Ideal)) W (Proc.devRef .tc main_v22) = _
  after_results
  show indexOfWords (W (Proc.devRef .tc main_v10_0)) (W (Proc.devRef .tc main_v10_1)) (W (Proc.devRef .tc main_v10_2)) = _
  rw [h6, h7, h8]
  exact indexOfWords_const _ _ _

/-! ## The run -/

/-- Every weakly fair execution ends with the result at the index of the three counts and the arguments unchanged. -/
theorem run : θ_run defs (onTc (τ := τ) (main (F := Ideal))) ⟨m, fun _ => 0, ρ⟩ fun r => ∀ c : Dev nD,
      r.2.mem ((c : Thread nD τ).loc main_v22)
          = (fun _ => index (concordantCount m c) (tiedCount m c) (comparableCount m c) : S_.Idx → EReal)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c =>
    ⟨((h c).2 main_v22 (Pipeline.mem_restRefs_of main_v22 (by decide) (by decide))).trans (result_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c)⟩)
    (run_main m ρ)

end Cert.KernelIdeal.Counts

end
-- ==== Proof.ReferenceCounts.lean ====
/-
  The reference's result as the concordance index of the three pair counts.

  Its 8192 × 8192 tables are read entry by entry: the time, event and risk broadcasts at (a, b) are sample a's or sample
  b's value; the comparable-pair bit, the two masked selections and the 0/1 conversion are the three pair terms; each
  host sum over the whole table, from a zero initial value, is the sum over all ordered pairs; and the scalar lines after
  the sums are the index of the three counts.
-/
import proofs.«138423_j1692217114660_1_alg».proof.Proof.Gen.ReferenceIdeal.Read
import proofs.«138423_j1692217114660_1_alg».proof.Proof.PairCount
import proofs.«138423_j1692217114660_1_alg».proof.Proof.LibGridSum

noncomputable section

open Idealize.ShloMosaic Idealize.ShloMosaic.ValueIdx

namespace Cert.ReferenceIdeal.Counts

open Cert.ReferenceIdeal Cert.ReferenceIdeal.Read Cert.PairCount Cert.GridSum

variable (x0 : (⟨S8192, .i1⟩ : BufTy).Contents (Elt Ideal)) (x1 x2 : (⟨S8192x1, .f32⟩ : BufTy).Contents (Elt Ideal))

/-! ## The broadcasts at (a, b) -/

theorem time_of_row (a b : Fin 8192) : val_main_v6 (F := Ideal) x1 (ix2 a b) = time x1 a := by
  rw [val_main_v6_apply, val_main_v3_apply, val_main_v1_apply, val_main_v0_apply]
  refine congrArg (fun j => Ideal.exp (x1 j)) (funext fun ax => Fin.ext ?_)
  match ax with
  | ⟨0, _⟩ => exact Nat.div_one _
  | ⟨1, _⟩ => rfl

theorem time_of_column (a b : Fin 8192) : val_main_v7 (F := Ideal) x1 (ix2 a b) = time x1 b := by
  rw [val_main_v7_apply, val_main_v4_apply, val_main_v1_apply, val_main_v0_apply]
  refine congrArg (fun j => Ideal.exp (x1 j)) (funext fun ax => Fin.ext ?_)
  match ax with
  | ⟨0, _⟩ => exact Nat.div_one _
  | ⟨1, _⟩ => rfl

theorem time_of_row' (a b : Fin 8192) : val_main_v9 (F := Ideal) x1 (ix2 a b) = time x1 a := by
  rw [val_main_v9_apply, val_main_v3_apply, val_main_v1_apply, val_main_v0_apply]
  refine congrArg (fun j => Ideal.exp (x1 j)) (funext fun ax => Fin.ext ?_)
  match ax with
  | ⟨0, _⟩ => exact Nat.div_one _
  | ⟨1, _⟩ => rfl

theorem time_of_column' (a b : Fin 8192) : val_main_v10 (F := Ideal) x1 (ix2 a b) = time x1 b := by
  rw [val_main_v10_apply, val_main_v4_apply, val_main_v1_apply, val_main_v0_apply]
  refine congrArg (fun j => Ideal.exp (x1 j)) (funext fun ax => Fin.ext ?_)
  match ax with
  | ⟨0, _⟩ => exact Nat.div_one _
  | ⟨1, _⟩ => rfl

theorem event_of_row (a b : Fin 8192) : val_main_v17 (F := Ideal) x0 (ix2 a b) = evt x0 a := by
  rw [val_main_v17_apply, val_main_v5_apply]
  refine congrArg x0 (funext fun ax => Fin.ext ?_)
  match ax with
  | ⟨0, _⟩ => rfl

theorem no_event_of_column (a b : Fin 8192) : val_main_v14 (F := Ideal) x0 (ix2 a b) = ~~~(evt x0 b) := by
  rw [val_main_v14_apply, val_main_v13_apply, val_main_v12_apply]
  refine congrArg (fun j => ~~~(x0 j)) (funext fun ax => Fin.ext ?_)
  match ax with
  | ⟨0, _⟩ => rfl

theorem risk_of_column (a b : Fin 8192) : val_main_v21 (F := Ideal) x2 (ix2 a b) = risk x2 b := by
  rw [val_main_v21_apply, val_main_v19_apply, val_main_v2_apply]
  refine congrArg x2 (funext fun ax => Fin.ext ?_)
  match ax with
  | ⟨0, _⟩ => exact Nat.div_one _
  | ⟨1, _⟩ => rfl

theorem risk_of_row (a b : Fin 8192) : val_main_v22 (F := Ideal) x2 (ix2 a b) = risk x2 a := by
  rw [val_main_v22_apply, val_main_v20_apply, val_main_v2_apply]
  refine congrArg x2 (funext fun ax => Fin.ext ?_)
  match ax with
  | ⟨0, _⟩ => exact Nat.div_one _
  | ⟨1, _⟩ => rfl

/-! ## The three tables at (a, b) -/

theorem comparable_at (a b : Fin 8192) :
    val_main_v18 (F := Ideal) x0 x1 (ix2 a b) = comparable (evt x0) (time x1) a b := by
  rw [val_main_v18_apply, val_main_v16_apply, val_main_v8_apply, val_main_v15_apply, val_main_v11_apply,
    event_of_row, no_event_of_column, time_of_row, time_of_column, time_of_row', time_of_column']
  rfl

theorem risk_difference_at (a b : Fin 8192) :
    val_main_v23 (F := Ideal) x2 (ix2 a b) = risk x2 b - risk x2 a := by
  rw [val_main_v23_apply, risk_of_column, risk_of_row]
  rfl

theorem concordant_at (a b : Fin 8192) :
    val_main_v28 (F := Ideal) x0 x1 x2 (ix2 a b) = concordantTerm (evt x0) (time x1) (risk x2) a b := by
  rw [val_main_v28_apply, val_main_v27_apply, val_main_v26_apply, comparable_at, val_main_v25_apply, risk_difference_at,
    val_main_v24_apply, val_main_cst_apply, val_main_call0_v0_apply, val_main_cst_0_apply, val_main_call0_v1_apply,
    val_main_cst_1_apply]
  rfl

theorem tied_at (a b : Fin 8192) :
    val_main_v35 (F := Ideal) x0 x1 x2 (ix2 a b) = tiedTerm (evt x0) (time x1) (risk x2) a b := by
  rw [val_main_v35_apply, val_main_v34_apply, val_main_v33_apply, comparable_at, val_main_v32_apply, val_main_v30_apply,
    risk_difference_at, val_main_v31_apply, val_main_cst_3_apply, val_main_call1_v0_apply, val_main_cst_4_apply,
    val_main_call1_v1_apply, val_main_cst_5_apply]
  rfl

theorem comparable_number_at (a b : Fin 8192) :
    val_main_v37 (F := Ideal) x0 x1 (ix2 a b) = comparableTerm (evt x0) (time x1) a b := by
  rw [val_main_v37_apply, comparable_at]
  rfl

/-! ## The three counts and the index -/

theorem concordant_count (i : S_.Idx) :
    val_main_v29 (F := Ideal) x0 x1 x2 i = pairSum (concordantTerm (evt x0) (time x1) (risk x2)) := by
  rw [val_main_v29_apply]
  show Ideal.ofBits .f32 0x00000000#32 + _ = _
  rw [Ideal.ofBits_zero_f32, zero_add, sum_idx2]
  exact Finset.sum_congr rfl fun a _ => Finset.sum_congr rfl fun b _ => concordant_at x0 x1 x2 a b

theorem tied_count (i : S_.Idx) :
    val_main_v36 (F := Ideal) x0 x1 x2 i = pairSum (tiedTerm (evt x0) (time x1) (risk x2)) := by
  rw [val_main_v36_apply]
  show Ideal.ofBits .f32 0x00000000#32 + _ = _
  rw [Ideal.ofBits_zero_f32, zero_add, sum_idx2]
  exact Finset.sum_congr rfl fun a _ => Finset.sum_congr rfl fun b _ => tied_at x0 x1 x2 a b

theorem comparable_count (i : S_.Idx) :
    val_main_v38 (F := Ideal) x0 x1 i = pairSum (comparableTerm (evt x0) (time x1)) := by
  rw [val_main_v38_apply]
  show Ideal.ofBits .f32 0x00000000#32 + _ = _
  rw [Ideal.ofBits_zero_f32, zero_add, sum_idx2]
  exact Finset.sum_congr rfl fun a _ => Finset.sum_congr rfl fun b _ => comparable_number_at x0 x1 a b

/-- The reference's result: the index of the three counts. -/
theorem result_eq (i : S_.Idx) :
    val_main_v47 (F := Ideal) x0 x1 x2 i
      = index (pairSum (concordantTerm (evt x0) (time x1) (risk x2))) (pairSum (tiedTerm (evt x0) (time x1) (risk x2)))
          (pairSum (comparableTerm (evt x0) (time x1))) := by
  rw [val_main_v47_apply, val_main_v46_apply, val_main_v42_apply, val_main_v45_apply, val_main_v44_apply, val_main_v43_apply,
    val_main_v41_apply, val_main_v40_apply, val_main_v39_apply, val_main_cst_10_apply, val_main_cst_9_apply,
    val_main_cst_8_apply, concordant_count, tied_count, comparable_count]
  rfl

end Cert.ReferenceIdeal.Counts

end
-- ==== Proof.lean ====
/-
  The concordance index of 8192 samples, computed two ways, is one extended real.

  Both programs count, over all ordered pairs (i, j) of samples, the comparable pairs (i has an event and its time
  exp(event_time_i) is strictly earlier than j's, or equal to it while j has no event), the comparable pairs whose risk
  difference r_j - r_i is negative, and those whose risk difference is at most 1e-8 in absolute value, and return
  1 - (discordant + 0.5·tied) / (discordant + concordant + tied + 1e-7) with discordant = total - concordant - tied.
  One forms each count as a sum of products of 0/1 numbers, 128 rows at a time over 64 grid points, into three one-word
  accumulators zeroed at the first point; the other forms the predicate by bit operations on the whole 8192 × 8192 table,
  selects 1 or 0 and sums once. Pair by pair the two spellings are the same number (Proof/PairCount.lean: a case analysis
  on the bits; a strict inequality and an equality never hold together), the 64 block sums add up to the sum over all pairs
  (Proof/LibGridSum.lean: addition is commutative and associative, nothing more is used, so no finiteness of the inputs is
  needed), and the scalar lines after the counts are the same on both sides. Proof/KernelCounts.lean reads the first
  program's result off its run (Proof/KernelPieces.lean and Proof/KernelBlock.lean: what one grid point leaves),
  Proof/ReferenceCounts.lean the second's; both are the index of the same three counts of the argument arrays.
  The word-level program has no rewritten operation, so its idealization is its own text read over the extended reals.
-/
import proofs.«138423_j1692217114660_1_alg».proof.Defs
import proofs.«138423_j1692217114660_1_alg».proof.Proof.Gen.Kernel
import proofs.«138423_j1692217114660_1_alg».proof.Proof.Gen.Kernel.Frame
import proofs.«138423_j1692217114660_1_alg».proof.Proof.Gen.KernelIdeal
import proofs.«138423_j1692217114660_1_alg».proof.Proof.Gen.KernelIdeal.Frame
import proofs.«138423_j1692217114660_1_alg».proof.Proof.Gen.ReferenceIdeal
import proofs.«138423_j1692217114660_1_alg».proof.Proof.Gen.ReferenceIdeal.Run
import proofs.«138423_j1692217114660_1_alg».proof.Proof.Gen.ReferenceIdeal.Read
import proofs.«138423_j1692217114660_1_alg».proof.Proof.Gen.Pre_finite_inputs
import proofs.«138423_j1692217114660_1_alg».proof.Proof.KernelCounts
import proofs.«138423_j1692217114660_1_alg».proof.Proof.ReferenceCounts
import Idealize.ShloMosaic.Adequacy
import Idealize.ShloMosaic.Init

noncomputable section

namespace Cert.Proof

open Idealize.ShloMosaic Idealize.SL.Sem

/-- The word-level program runs and leaves its arguments as they were. -/
theorem frame_kernel : Cert.frame_Kernel := fun m ρ _ => Cert.Kernel.Gen.frame m ρ

/-- So does the program read over the extended reals. -/
theorem frame_kernel_ideal : Cert.frame_KernelIdeal := fun m ρ _ => Cert.KernelIdeal.Gen.frame m ρ

/-- The reference runs and leaves its arguments as they were: its run with the result forgotten. -/
theorem frame_reference : Cert.frame_ReferenceIdeal := fun m ρ _ =>
  (θ_run Cert.ReferenceIdeal.defs _ _).mono (fun _ h c => (h c).2) (Cert.ReferenceIdeal.Value.run (F := Ideal) m ρ)

/-- No operation was rewritten. -/
theorem preserves : Cert.preserves_Kernel_KernelIdeal := trivial

/-- From memories that agree on the three argument arrays both programs end at the index of the same three pair counts. -/
theorem algebraic : Cert.algebraic_KernelIdeal_ReferenceIdeal := by
  intro m ρ m' ρ' _ hagree
  refine ⟨fun c => (fun _ => Cert.PairCount.index (Cert.KernelIdeal.Counts.concordantCount m c)
      (Cert.KernelIdeal.Counts.tiedCount m c) (Cert.KernelIdeal.Counts.comparableCount m c)),
    Cert.KernelIdeal.Counts.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v47_eq, (hagree c).1, (hagree c).2.1, (hagree c).2.2]
  funext i
  exact Cert.ReferenceIdeal.Counts.result_eq _ _ _ i

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, preserves, algebraic⟩

end Cert.Proof

end
